-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32768x64 : Shape := ⟨3, ![16, 32768, 64]⟩
abbrev S16x32768x3 : Shape := ⟨3, ![16, 32768, 3]⟩
abbrev S_ : Shape := ⟨0, ![]⟩

class Facts : Prop where
  bcast_S_S16x32768x64 : S_.BroadcastsInDim S16x32768x64 (![] : Fin 0 → Fin S16x32768x64.rank)
  reducesTo_S16x32768x64_S_d0_1_2 : S16x32768x64.ReducesTo [0, 1, 2] S_
  h_S_ : 0 < S_.numel
  bcast_S_S16x32768x3 : S_.BroadcastsInDim S16x32768x3 (![] : Fin 0 → Fin S16x32768x3.rank)
  reducesTo_S16x32768x3_S_d0_1_2 : S16x32768x3.ReducesTo [0, 1, 2] S_

variable [Facts]

def fn {F : FTy → Type} [FloatOps F] (main_arg0 : FVec F S16x32768x64 .f32) (main_arg1 : FVec F S16x32768x3 .f32) : IVec S_ 1 :=
  let main_v0 : FVec F S16x32768x64 .f32 := Host.absf main_arg0
  let main_cst : FVec F S_ .f32 := constant S_ .f32 0x7F800000#32
  let main_v1 : FVec F S16x32768x64 .f32 := broadcastInDim S16x32768x64 ![] bcast_S_S16x32768x64 main_cst
  let main_v2 : IVec S16x32768x64 1 := cmpf .olt main_v0 main_v1
  let main_c : IVec S_ 1 := constantI S_ 1 1#1
  let main_v3 : IVec S_ 1 := (fun x v => Host.reduce IntOp.andi x v reducesTo_S16x32768x64_S_d0_1_2 h_S_) main_v2 main_c
  let main_v4 : FVec F S16x32768x3 .f32 := Host.absf main_arg1
  let main_cst_0 : FVec F S_ .f32 := constant S_ .f32 0x7F800000#32
  let main_v5 : FVec F S16x32768x3 .f32 := broadcastInDim S16x32768x3 ![] bcast_S_S16x32768x3 main_cst_0
  let main_v6 : IVec S16x32768x3 1 := cmpf .olt main_v4 main_v5
  let main_c_1 : IVec S_ 1 := constantI S_ 1 1#1
  let main_v7 : IVec S_ 1 := (fun x v => Host.reduce IntOp.andi x v reducesTo_S16x32768x3_S_d0_1_2 h_S_) main_v6 main_c_1
  let main_v8 : IVec S_ 1 := andi main_v3 main_v7
  main_v8
-- ==== Kernel.lean ====
abbrev S16x32768x64 : Shape := ⟨3, ![16, 32768, 64]⟩
abbrev S16x32768x3 : Shape := ⟨3, ![16, 32768, 3]⟩
abbrev S_ : Shape := ⟨0, ![]⟩
abbrev S16x3 : Shape := ⟨2, ![16, 3]⟩
abbrev S16x1x3 : Shape := ⟨3, ![16, 1, 3]⟩
abbrev S16x32768 : Shape := ⟨2, ![16, 32768]⟩
abbrev S16x32768x1 : Shape := ⟨3, ![16, 32768, 1]⟩
abbrev S16x1 : Shape := ⟨2, ![16, 1]⟩
abbrev S16x1x1 : Shape := ⟨3, ![16, 1, 1]⟩
abbrev S16 : Shape := ⟨1, ![16]⟩
abbrev S524288 : Shape := ⟨1, ![524288]⟩
abbrev S524288x1 : Shape := ⟨2, ![524288, 1]⟩
abbrev S16x1x32768 : Shape := ⟨3, ![16, 1, 32768]⟩
abbrev S16x64x32768 : Shape := ⟨3, ![16, 64, 32768]⟩
abbrev S1x1x32768 : Shape := ⟨3, ![1, 1, 32768]⟩
abbrev S1x32768x64 : Shape := ⟨3, ![1, 32768, 64]⟩
abbrev S1x64x1024 : Shape := ⟨3, ![1, 64, 1024]⟩
abbrev S64x1024 : Shape := ⟨2, ![64, 1024]⟩
abbrev S1x1024x64 : Shape := ⟨3, ![1, 1024, 64]⟩
abbrev S1024x64 : Shape := ⟨2, ![1024, 64]⟩
abbrev S1x1x1024 : Shape := ⟨3, ![1, 1, 1024]⟩
abbrev S1024 : Shape := ⟨1, ![1024]⟩
abbrev S1024x1024 : Shape := ⟨2, ![1024, 1024]⟩
abbrev S1024x1 : Shape := ⟨2, ![1024, 1]⟩
abbrev S16x64x32x32x32 : Shape := ⟨5, ![16, 64, 32, 32, 32]⟩

abbrev nBuf : Space → Nat
  | .hbm => 72
  | .vmem => 7
  | .smem => 0
  | _ => 0

abbrev bufTy : (tb : Table) → Fin (tcTables nBuf tb) → BufTy
  | .hbm, ⟨0, _⟩ => ⟨S16x32768x64, .f32⟩
  | .hbm, ⟨1, _⟩ => ⟨S16x32768x3, .f32⟩
  | .hbm, ⟨2, _⟩ => ⟨S_, .f32⟩
  | .hbm, ⟨3, _⟩ => ⟨S16x3, .f32⟩
  | .hbm, ⟨4, _⟩ => ⟨S16x1x3, .f32⟩
  | .hbm, ⟨5, _⟩ => ⟨S_, .f32⟩
  | .hbm, ⟨6, _⟩ => ⟨S16x1x3, .f32⟩
  | .hbm, ⟨7, _⟩ => ⟨S16x1x3, .f32⟩
  | .hbm, ⟨8, _⟩ => ⟨S16x32768x3, .f32⟩
  | .hbm, ⟨9, _⟩ => ⟨S16x32768x3, .f32⟩
  | .hbm, ⟨10, _⟩ => ⟨S16x32768x3, .f32⟩
  | .hbm, ⟨11, _⟩ => ⟨S_, .f32⟩
  | .hbm, ⟨12, _⟩ => ⟨S16x32768, .f32⟩
  | .hbm, ⟨13, _⟩ => ⟨S16x32768x1, .f32⟩
  | .hbm, ⟨14, _⟩ => ⟨S16x32768x1, .f32⟩
  | .hbm, ⟨15, _⟩ => ⟨S_, .f32⟩
  | .hbm, ⟨16, _⟩ => ⟨S16x1, .f32⟩
  | .hbm, ⟨17, _⟩ => ⟨S16x1x1, .f32⟩
  | .hbm, ⟨18, _⟩ => ⟨S_, .f32⟩
  | .hbm, ⟨19, _⟩ => ⟨S16x1x1, .f32⟩
  | .hbm, ⟨20, _⟩ => ⟨S16x1x1, .f32⟩
  | .hbm, ⟨21, _⟩ => ⟨S_, .f32⟩
  | .hbm, ⟨22, _⟩ => ⟨S16x1x1, .f32⟩
  | .hbm, ⟨23, _⟩ => ⟨S16x1x1, .f32⟩
  | .hbm, ⟨24, _⟩ => ⟨S16x32768x3, .f32⟩
  | .hbm, ⟨25, _⟩ => ⟨S16x32768x3, .f32⟩
  | .hbm, ⟨26, _⟩ => ⟨S_, .f32⟩
  | .hbm, ⟨27, _⟩ => ⟨S16x32768x3, .f32⟩
  | .hbm, ⟨28, _⟩ => ⟨S16x32768x3, .f32⟩
  | .hbm, ⟨29, _⟩ => ⟨S_, .f32⟩
  | .hbm, ⟨30, _⟩ => ⟨S16x32768x3, .f32⟩
  | .hbm, ⟨31, _⟩ => ⟨S16x32768x3, .f32⟩
  | .hbm, ⟨32, _⟩ => ⟨S16x32768x3, .f32⟩
  | .hbm, ⟨33, _⟩ => ⟨S16x32768x3, .i32⟩
  | .hbm, ⟨34, _⟩ => ⟨S16x32768x1, .i32⟩
  | .hbm, ⟨35, _⟩ => ⟨S16x32768, .i32⟩
  | .hbm, ⟨36, _⟩ => ⟨S_, .i32⟩
  | .hbm, ⟨37, _⟩ => ⟨S16x32768, .i32⟩
  | .hbm, ⟨38, _⟩ => ⟨S16x32768, .i32⟩
  | .hbm, ⟨39, _⟩ => ⟨S16x32768x1, .i32⟩
  | .hbm, ⟨40, _⟩ => ⟨S16x32768, .i32⟩
  | .hbm, ⟨41, _⟩ => ⟨S_, .i32⟩
  | .hbm, ⟨42, _⟩ => ⟨S16x32768, .i32⟩
  | .hbm, ⟨43, _⟩ => ⟨S16x32768, .i32⟩
  | .hbm, ⟨44, _⟩ => ⟨S16x32768, .i32⟩
  | .hbm, ⟨45, _⟩ => ⟨S16x32768x1, .i32⟩
  | .hbm, ⟨46, _⟩ => ⟨S16x32768, .i32⟩
  | .hbm, ⟨47, _⟩ => ⟨S16x32768, .i32⟩
  | .hbm, ⟨48, _⟩ => ⟨S16, .i32⟩
  | .hbm, ⟨49, _⟩ => ⟨S16x1, .i32⟩
  | .hbm, ⟨50, _⟩ => ⟨S_, .i32⟩
  | .hbm, ⟨51, _⟩ => ⟨S16x1, .i32⟩
  | .hbm, ⟨52, _⟩ => ⟨S16x1, .i32⟩
  | .hbm, ⟨53, _⟩ => ⟨S16x32768, .i32⟩
  | .hbm, ⟨54, _⟩ => ⟨S16x32768, .i32⟩
  | .hbm, ⟨55, _⟩ => ⟨S524288, .i32⟩
  | .hbm, ⟨56, _⟩ => ⟨S_, .f32⟩
  | .hbm, ⟨57, _⟩ => ⟨S524288, .f32⟩
  | .hbm, ⟨58, _⟩ => ⟨S_, .f32⟩
  | .hbm, ⟨59, _⟩ => ⟨S524288, .f32⟩
  | .hbm, ⟨60, _⟩ => ⟨S524288x1, .i32⟩
  | .hbm, ⟨61, _⟩ => ⟨S524288, .f32⟩
  | .hbm, ⟨62, _⟩ => ⟨S16x32768, .f32⟩
  | .hbm, ⟨63, _⟩ => ⟨S16x1x32768, .i32⟩
  | .hbm, ⟨64, _⟩ => ⟨S16x64x32768, .f32⟩
  | .hbm, ⟨65, _⟩ => ⟨S_, .f32⟩
  | .hbm, ⟨66, _⟩ => ⟨S16x32768, .f32⟩
  | .hbm, ⟨67, _⟩ => ⟨S16x32768, .f32⟩
  | .hbm, ⟨68, _⟩ => ⟨S16x1x32768, .f32⟩
  | .hbm, ⟨69, _⟩ => ⟨S16x64x32768, .f32⟩
  | .hbm, ⟨70, _⟩ => ⟨S16x64x32768, .f32⟩
  | .hbm, ⟨71, _⟩ => ⟨S16x64x32x32x32, .f32⟩
  | .local _ .vmem, ⟨0, _⟩ => ⟨S1x1x32768, .i32⟩
  | .local _ .vmem, ⟨1, _⟩ => ⟨S1x1x32768, .i32⟩
  | .local _ .vmem, ⟨2, _⟩ => ⟨S1x32768x64, .f32⟩
  | .local _ .vmem, ⟨3, _⟩ => ⟨S1x32768x64, .f32⟩
  | .local _ .vmem, ⟨4, _⟩ => ⟨S1x64x1024, .f32⟩
  | .local _ .vmem, ⟨5, _⟩ => ⟨S1x64x1024, .f32⟩
  | .local _ .vmem, ⟨6, _⟩ => ⟨S64x1024, .f32⟩
  | _, _ => ⟨S16x32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 32], ![false, false]⟩

@[reducible] def k0_t1_loop : Scf.Loop 32 :=
  let c0_i32 : BitVec 32 := 0#32
  let c32_i32 : BitVec 32 := 32#32
  let v5 : BitVec 32 := Scalar.addi c0_i32 c32_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c1024_i32_7 : BitVec 32 := 1024#32
  let v10 : BitVec 32 := Scalar.muli arg6 c1024_i32_7
  v10
def k0_off1 (k0_t1 : Fin k0_t1_loop.trips) : Fin 3 → Nat :=
  let c0_8 : Index := 0#32
  let c0_i32 : BitVec 32 := 0#32
  let c1_i32 : BitVec 32 := 1#32
  let arg6 : BitVec 32 := Scf.iv c0_i32 c1_i32 k0_t1
  let c1024_i32_7 : BitVec 32 := 1024#32
  let v10 : BitVec 32 := Scalar.muli arg6 c1024_i32_7
  let v11 : BitVec 32 := v10
  let v12 : Index := Scalar.indexCast v11
  let c0_9 : Index := 0#32
  ![0, v12.toNat, 0]
def k0_off2 (k0_t1 : Fin k0_t1_loop.trips) : Fin 3 → Nat :=
  let c0_10 : Index := 0#32
  let c0_11 : Index := 0#32
  let c0_i32 : BitVec 32 := 0#32
  let c1_i32 : BitVec 32 := 1#32
  let arg6 : BitVec 32 := Scf.iv c0_i32 c1_i32 k0_t1
  let c1024_i32_7 : BitVec 32 := 1024#32
  let v10 : BitVec 32 := Scalar.muli arg6 c1024_i32_7
  let v11 : BitVec 32 := v10
  let v15 : Index := Scalar.indexCast v11
  ![0, 0, v15.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x32768 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32768x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S16x32768x3_S16x3_d1 : S16x32768x3.ReducesTo [1] S16x3
  h_S_ : 0 < S_.numel
  bcast_S16x3_S16x1x3_0_2 : S16x3.BroadcastsInDim S16x1x3 (![0, 2] : Fin 2 → Fin S16x1x3.rank)
  bcast_S_S16x1x3 : S_.BroadcastsInDim S16x1x3 (![] : Fin 0 → Fin S16x1x3.rank)
  bcast_S16x1x3_S16x32768x3_0_1_2 : S16x1x3.BroadcastsInDim S16x32768x3 (![0, 1, 2] : Fin 3 → Fin S16x32768x3.rank)
  reducesTo_S16x32768x3_S16x32768_d2 : S16x32768x3.ReducesTo [2] S16x32768
  bcast_S16x32768_S16x32768x1_0_1 : S16x32768.BroadcastsInDim S16x32768x1 (![0, 1] : Fin 2 → Fin S16x32768x1.rank)
  reducesTo_S16x32768x1_S16x1_d1 : S16x32768x1.ReducesTo [1] S16x1
  bcast_S16x1_S16x1x1_0_2 : S16x1.BroadcastsInDim S16x1x1 (![0, 2] : Fin 2 → Fin S16x1x1.rank)
  bcast_S_S16x1x1 : S_.BroadcastsInDim S16x1x1 (![] : Fin 0 → Fin S16x1x1.rank)
  bcast_S16x1x1_S16x32768x3_0_1_2 : S16x1x1.BroadcastsInDim S16x32768x3 (![0, 1, 2] : Fin 3 → Fin S16x32768x3.rank)
  bcast_S_S16x32768x3 : S_.BroadcastsInDim S16x32768x3 (![] : Fin 0 → Fin S16x32768x3.rank)
  slices_S16x32768x3_S16x32768x1_0_0_0 : S16x32768x3.Slices ![0, 0, 0] S16x32768x1
  shapeCasts_S16x32768x1_S16x32768 : S16x32768x1.ShapeCasts S16x32768
  bcast_S_S16x32768 : S_.BroadcastsInDim S16x32768 (![] : Fin 0 → Fin S16x32768.rank)
  slices_S16x32768x3_S16x32768x1_0_0_1 : S16x32768x3.Slices ![0, 0, 1] S16x32768x1
  slices_S16x32768x3_S16x32768x1_0_0_2 : S16x32768x3.Slices ![0, 0, 2] S16x32768x1
  bcast_S16_S16x1_0 : S16.BroadcastsInDim S16x1 (![0] : Fin 1 → Fin S16x1.rank)
  bcast_S_S16x1 : S_.BroadcastsInDim S16x1 (![] : Fin 0 → Fin S16x1.rank)
  bcast_S16x1_S16x32768_0_1 : S16x1.BroadcastsInDim S16x32768 (![0, 1] : Fin 2 → Fin S16x32768.rank)
  shapeCasts_S16x32768_S524288 : S16x32768.ShapeCasts S524288
  bcast_S_S524288 : S_.BroadcastsInDim S524288 (![] : Fin 0 → Fin S524288.rank)
  bcast_S524288_S524288x1_0 : S524288.BroadcastsInDim S524288x1 (![0] : Fin 1 → Fin S524288x1.rank)
  shapeCasts_S524288_S16x32768 : S524288.ShapeCasts S16x32768
  bcast_S16x32768_S16x1x32768_0_2 : S16x32768.BroadcastsInDim S16x1x32768 (![0, 2] : Fin 2 → Fin S16x1x32768.rank)
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  h_S1x1024x64 : 0 < S1x1024x64.numel
  shapeCasts_S1x1024x64_S1024x64 : S1x1024x64.ShapeCasts S1024x64
  h_S1x1x1024 : 0 < S1x1x1024.numel
  shapeCasts_S1x1x1024_S1024 : S1x1x1024.ShapeCasts S1024
  iota_S1024x1024_d1_w32 : S1024x1024.Iotas .tc 32 [1]
  shapeCasts_S1024_S1024x1 : S1024.ShapeCasts S1024x1
  broadcasts_S1024x1_S1024x1024 : S1024x1.Broadcasts S1024x1024
  natLt_1_32 : 1 < 32
  bitsLt_bf16_f32 : FTy.bits .bf16 < FTy.bits .f32
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  bcast_S16x1x32768_S16x64x32768_0_1_2 : S16x1x32768.BroadcastsInDim S16x64x32768 (![0, 1, 2] : Fin 3 → Fin S16x64x32768.rank)
  shapeCasts_S16x64x32768_S16x64x32x32x32 : S16x64x32768.ShapeCasts S16x64x32x32x32
  scatter_S524288_S524288x1_S524288_n_0_0_1_wf : ScatterDims.WF S524288 S524288x1 S524288 [] [0] [0] 1
  dot_S1024x64_S1024x1024_S64x1024_0_0_1_1_n_n_wf : DotDims.WF S1024x64 S1024x1024 S64x1024 [0] [0] [1] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1x1024x64.size a ≤ S1x32768x64.size a
  k0_off2_inb : ∀ k0_t1 : Fin k0_t1_loop.trips, ∀ a, (k0_off2 k0_t1) a + S1x1x1024.size a ≤ S1x1x32768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x32768.size a ≤ S16x1x32768.size a
  hwx0_0 : ∀ i : grid0.Coords, EltTy.bits .i32 = 32 ∨ (Rect.block (s := S16x1x32768) S1x1x32768.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32768x64.size a ≤ S16x32768x64.size a
  hwx0_1 : ∀ i : grid0.Coords, EltTy.bits .f32 = 32 ∨ (Rect.block (s := S16x32768x64) S1x32768x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1024.size a ≤ S16x64x32768.size a
  hwx0_2 : ∀ i : grid0.Coords, EltTy.bits .f32 = 32 ∨ (Rect.block (s := S16x64x32768) S1x64x1024.size (cc0_transform_2 i) (hinb0_2 i)).WholeWords (EltTy.packing .f32)

variable [Facts₀]

def scatter_S524288_S524288x1_S524288_n_0_0_1 : ScatterDims S524288 S524288x1 S524288 where
  updateWindowDims := []
  insertedWindowDims := [0]
  scatterDimsToOperandDims := [0]
  indexVectorDim := 1
  wf := scatter_S524288_S524288x1_S524288_n_0_0_1_wf
def dot_S1024x64_S1024x1024_S64x1024_0_0_1_1_n_n : DotDims S1024x64 S1024x1024 S64x1024 where
  lhsContracting := [0]
  rhsContracting := [0]
  lhsNonContracting := [1]
  rhsNonContracting := [1]
  lhsBatch := []
  rhsBatch := []
  wf := dot_S1024x64_S1024x1024_S64x1024_0_0_1_1_n_n_wf

abbrev win0_0 : Pipeline.Window sig grid0 :=
  Pipeline.Window.ofSpec (Memref.whole main_v45) S1x1x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x32768x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S1x64x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x32768x64 : Shape := ⟨3, ![16, 32768, 64]⟩
abbrev S16x32768x3 : Shape := ⟨3, ![16, 32768, 3]⟩
abbrev S_ : Shape := ⟨0, ![]⟩
abbrev S16x3 : Shape := ⟨2, ![16, 3]⟩
abbrev S16x1x3 : Shape := ⟨3, ![16, 1, 3]⟩
abbrev S16x32768 : Shape := ⟨2, ![16, 32768]⟩
abbrev S16x32768x1 : Shape := ⟨3, ![16, 32768, 1]⟩
abbrev S16x1 : Shape := ⟨2, ![16, 1]⟩
abbrev S16x1x1 : Shape := ⟨3, ![16, 1, 1]⟩
abbrev S16 : Shape := ⟨1, ![16]⟩
abbrev S524288 : Shape := ⟨1, ![524288]⟩
abbrev S524288x64 : Shape := ⟨2, ![524288, 64]⟩
abbrev S524288x1 : Shape := ⟨2, ![524288, 1]⟩
abbrev S16x64x32768 : Shape := ⟨3, ![16, 64, 32768]⟩
abbrev S16x64x32x32x32 : Shape := ⟨5, ![16, 64, 32, 32, 32]⟩

abbrev nBuf : Space → Nat
  | .hbm => 76
  | .vmem => 0
  | .smem => 0
  | _ => 0

abbrev bufTy : (tb : Table) → Fin (tcTables nBuf tb) → BufTy
  | .hbm, ⟨0, _⟩ => ⟨S16x32768x64, .f32⟩
  | .hbm, ⟨1, _⟩ => ⟨S16x32768x3, .f32⟩
  | .hbm, ⟨2, _⟩ => ⟨S_, .f32⟩
  | .hbm, ⟨3, _⟩ => ⟨S16x3, .f32⟩
  | .hbm, ⟨4, _⟩ => ⟨S16x1x3, .f32⟩
  | .hbm, ⟨5, _⟩ => ⟨S_, .f32⟩
  | .hbm, ⟨6, _⟩ => ⟨S16x1x3, .f32⟩
  | .hbm, ⟨7, _⟩ => ⟨S16x1x3, .f32⟩
  | .hbm, ⟨8, _⟩ => ⟨S16x32768x3, .f32⟩
  | .hbm, ⟨9, _⟩ => ⟨S16x32768x3, .f32⟩
  | .hbm, ⟨10, _⟩ => ⟨S16x32768x3, .f32⟩
  | .hbm, ⟨11, _⟩ => ⟨S_, .f32⟩
  | .hbm, ⟨12, _⟩ => ⟨S16x32768, .f32⟩
  | .hbm, ⟨13, _⟩ => ⟨S16x32768x1, .f32⟩
  | .hbm, ⟨14, _⟩ => ⟨S16x32768x1, .f32⟩
  | .hbm, ⟨15, _⟩ => ⟨S_, .f32⟩
  | .hbm, ⟨16, _⟩ => ⟨S16x1, .f32⟩
  | .hbm, ⟨17, _⟩ => ⟨S16x1x1, .f32⟩
  | .hbm, ⟨18, _⟩ => ⟨S_, .f32⟩
  | .hbm, ⟨19, _⟩ => ⟨S16x1x1, .f32⟩
  | .hbm, ⟨20, _⟩ => ⟨S16x1x1, .f32⟩
  | .hbm, ⟨21, _⟩ => ⟨S_, .f32⟩
  | .hbm, ⟨22, _⟩ => ⟨S16x1x1, .f32⟩
  | .hbm, ⟨23, _⟩ => ⟨S16x1x1, .f32⟩
  | .hbm, ⟨24, _⟩ => ⟨S16x32768x3, .f32⟩
  | .hbm, ⟨25, _⟩ => ⟨S16x32768x3, .f32⟩
  | .hbm, ⟨26, _⟩ => ⟨S_, .f32⟩
  | .hbm, ⟨27, _⟩ => ⟨S16x32768x3, .f32⟩
  | .hbm, ⟨28, _⟩ => ⟨S16x32768x3, .f32⟩
  | .hbm, ⟨29, _⟩ => ⟨S_, .f32⟩
  | .hbm, ⟨30, _⟩ => ⟨S16x32768x3, .f32⟩
  | .hbm, ⟨31, _⟩ => ⟨S16x32768x3, .f32⟩
  | .hbm, ⟨32, _⟩ => ⟨S16x32768x3, .f32⟩
  | .hbm, ⟨33, _⟩ => ⟨S16x32768x3, .i32⟩
  | .hbm, ⟨34, _⟩ => ⟨S16x32768x1, .i32⟩
  | .hbm, ⟨35, _⟩ => ⟨S16x32768, .i32⟩
  | .hbm, ⟨36, _⟩ => ⟨S_, .i32⟩
  | .hbm, ⟨37, _⟩ => ⟨S16x32768, .i32⟩
  | .hbm, ⟨38, _⟩ => ⟨S16x32768, .i32⟩
  | .hbm, ⟨39, _⟩ => ⟨S16x32768x1, .i32⟩
  | .hbm, ⟨40, _⟩ => ⟨S16x32768, .i32⟩
  | .hbm, ⟨41, _⟩ => ⟨S_, .i32⟩
  | .hbm, ⟨42, _⟩ => ⟨S16x32768, .i32⟩
  | .hbm, ⟨43, _⟩ => ⟨S16x32768, .i32⟩
  | .hbm, ⟨44, _⟩ => ⟨S16x32768, .i32⟩
  | .hbm, ⟨45, _⟩ => ⟨S16x32768x1, .i32⟩
  | .hbm, ⟨46, _⟩ => ⟨S16x32768, .i32⟩
  | .hbm, ⟨47, _⟩ => ⟨S16x32768, .i32⟩
  | .hbm, ⟨48, _⟩ => ⟨S16, .i32⟩
  | .hbm, ⟨49, _⟩ => ⟨S16x1, .i32⟩
  | .hbm, ⟨50, _⟩ => ⟨S_, .i32⟩
  | .hbm, ⟨51, _⟩ => ⟨S16x1, .i32⟩
  | .hbm, ⟨52, _⟩ => ⟨S16x1, .i32⟩
  | .hbm, ⟨53, _⟩ => ⟨S16x32768, .i32⟩
  | .hbm, ⟨54, _⟩ => ⟨S16x32768, .i32⟩
  | .hbm, ⟨55, _⟩ => ⟨S524288, .i32⟩
  | .hbm, ⟨56, _⟩ => ⟨S524288x64, .f32⟩
  | .hbm, ⟨57, _⟩ => ⟨S_, .f32⟩
  | .hbm, ⟨58, _⟩ => ⟨S524288x64, .f32⟩
  | .hbm, ⟨59, _⟩ => ⟨S524288x1, .i32⟩
  | .hbm, ⟨60, _⟩ => ⟨S524288x64, .f32⟩
  | .hbm, ⟨61, _⟩ => ⟨S16x32768x64, .f32⟩
  | .hbm, ⟨62, _⟩ => ⟨S_, .f32⟩
  | .hbm, ⟨63, _⟩ => ⟨S524288, .f32⟩
  | .hbm, ⟨64, _⟩ => ⟨S_, .f32⟩
  | .hbm, ⟨65, _⟩ => ⟨S524288, .f32⟩
  | .hbm, ⟨66, _⟩ => ⟨S524288x1, .i32⟩
  | .hbm, ⟨67, _⟩ => ⟨S524288, .f32⟩
  | .hbm, ⟨68, _⟩ => ⟨S16x32768x1, .f32⟩
  | .hbm, ⟨69, _⟩ => ⟨S_, .f32⟩
  | .hbm, ⟨70, _⟩ => ⟨S16x32768x1, .f32⟩
  | .hbm, ⟨71, _⟩ => ⟨S16x32768x1, .f32⟩
  | .hbm, ⟨72, _⟩ => ⟨S16x32768x64, .f32⟩
  | .hbm, ⟨73, _⟩ => ⟨S16x32768x64, .f32⟩
  | .hbm, ⟨74, _⟩ => ⟨S16x64x32768, .f32⟩
  | .hbm, ⟨75, _⟩ => ⟨S16x64x32x32x32, .f32⟩
  | _, _ => ⟨S16x32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]

class Facts₀ : Prop where
  reducesTo_S16x32768x3_S16x3_d1 : S16x32768x3.ReducesTo [1] S16x3
  h_S_ : 0 < S_.numel
  bcast_S16x3_S16x1x3_0_2 : S16x3.BroadcastsInDim S16x1x3 (![0, 2] : Fin 2 → Fin S16x1x3.rank)
  bcast_S_S16x1x3 : S_.BroadcastsInDim S16x1x3 (![] : Fin 0 → Fin S16x1x3.rank)
  bcast_S16x1x3_S16x32768x3_0_1_2 : S16x1x3.BroadcastsInDim S16x32768x3 (![0, 1, 2] : Fin 3 → Fin S16x32768x3.rank)
  reducesTo_S16x32768x3_S16x32768_d2 : S16x32768x3.ReducesTo [2] S16x32768
  bcast_S16x32768_S16x32768x1_0_1 : S16x32768.BroadcastsInDim S16x32768x1 (![0, 1] : Fin 2 → Fin S16x32768x1.rank)
  reducesTo_S16x32768x1_S16x1_d1 : S16x32768x1.ReducesTo [1] S16x1
  bcast_S16x1_S16x1x1_0_2 : S16x1.BroadcastsInDim S16x1x1 (![0, 2] : Fin 2 → Fin S16x1x1.rank)
  bcast_S_S16x1x1 : S_.BroadcastsInDim S16x1x1 (![] : Fin 0 → Fin S16x1x1.rank)
  bcast_S16x1x1_S16x32768x3_0_1_2 : S16x1x1.BroadcastsInDim S16x32768x3 (![0, 1, 2] : Fin 3 → Fin S16x32768x3.rank)
  bcast_S_S16x32768x3 : S_.BroadcastsInDim S16x32768x3 (![] : Fin 0 → Fin S16x32768x3.rank)
  slices_S16x32768x3_S16x32768x1_0_0_0 : S16x32768x3.Slices ![0, 0, 0] S16x32768x1
  shapeCasts_S16x32768x1_S16x32768 : S16x32768x1.ShapeCasts S16x32768
  bcast_S_S16x32768 : S_.BroadcastsInDim S16x32768 (![] : Fin 0 → Fin S16x32768.rank)
  slices_S16x32768x3_S16x32768x1_0_0_1 : S16x32768x3.Slices ![0, 0, 1] S16x32768x1
  slices_S16x32768x3_S16x32768x1_0_0_2 : S16x32768x3.Slices ![0, 0, 2] S16x32768x1
  bcast_S16_S16x1_0 : S16.BroadcastsInDim S16x1 (![0] : Fin 1 → Fin S16x1.rank)
  bcast_S_S16x1 : S_.BroadcastsInDim S16x1 (![] : Fin 0 → Fin S16x1.rank)
  bcast_S16x1_S16x32768_0_1 : S16x1.BroadcastsInDim S16x32768 (![0, 1] : Fin 2 → Fin S16x32768.rank)
  shapeCasts_S16x32768_S524288 : S16x32768.ShapeCasts S524288
  shapeCasts_S16x32768x64_S524288x64 : S16x32768x64.ShapeCasts S524288x64
  bcast_S_S524288x64 : S_.BroadcastsInDim S524288x64 (![] : Fin 0 → Fin S524288x64.rank)
  bcast_S524288_S524288x1_0 : S524288.BroadcastsInDim S524288x1 (![0] : Fin 1 → Fin S524288x1.rank)
  shapeCasts_S524288x64_S16x32768x64 : S524288x64.ShapeCasts S16x32768x64
  bcast_S_S524288 : S_.BroadcastsInDim S524288 (![] : Fin 0 → Fin S524288.rank)
  shapeCasts_S524288_S16x32768x1 : S524288.ShapeCasts S16x32768x1
  bcast_S_S16x32768x1 : S_.BroadcastsInDim S16x32768x1 (![] : Fin 0 → Fin S16x32768x1.rank)
  bcast_S16x32768x1_S16x32768x64_0_1_2 : S16x32768x1.BroadcastsInDim S16x32768x64 (![0, 1, 2] : Fin 3 → Fin S16x32768x64.rank)
  transposes_S16x32768x64_S16x64x32768_0_2_1 : S16x32768x64.Transposes [0, 2, 1] S16x64x32768
  shapeCasts_S16x64x32768_S16x64x32x32x32 : S16x64x32768.ShapeCasts S16x64x32x32x32
  scatter_S524288x64_S524288x1_S524288x64_1_0_0_1_wf : ScatterDims.WF S524288x64 S524288x1 S524288x64 [1] [0] [0] 1
  scatter_S524288_S524288x1_S524288_n_0_0_1_wf : ScatterDims.WF S524288 S524288x1 S524288 [] [0] [0] 1

variable [Facts₀]

def scatter_S524288x64_S524288x1_S524288x64_1_0_0_1 : ScatterDims S524288x64 S524288x1 S524288x64 where
  updateWindowDims := [1]
  insertedWindowDims := [0]
  scatterDimsToOperandDims := [0]
  indexVectorDim := 1
  wf := scatter_S524288x64_S524288x1_S524288x64_1_0_0_1_wf
def scatter_S524288_S524288x1_S524288_n_0_0_1 : ScatterDims S524288 S524288x1 S524288 where
  updateWindowDims := []
  insertedWindowDims := [0]
  scatterDimsToOperandDims := [0]
  indexVectorDim := 1
  wf := scatter_S524288_S524288x1_S524288_n_0_0_1_wf

class Facts : Prop extends Facts₀ where

variable [Facts]
-- ==== Proof.FiniteInputs.lean ====
/- From the printed precondition to finiteness: the precondition is the conjunction of two tests, each the
   conjunction over a whole array of |x| < +∞; so where it holds every entry of the coordinates array is a real. -/
import proofs.«170821_j87144886436561_2_alg».proof.Pre_finite_inputs
import Idealize.ShloMosaic.Lib.ReduceAll
import Idealize.ShloMosaic.Lib.ValueIdx
import Idealize.ShloMosaic.PureOps.Ideal

noncomputable section

namespace Cert.FiniteInputs

open Idealize.ShloMosaic

/-- The scalar shape has one index. -/
instance : Subsingleton Cert.Pre_finite_inputs.S_.Idx := ⟨fun a b => funext fun d => d.elim0⟩

/-- A truth value's one-bit word is 1 exactly when it is true. -/
theorem ofBool_eq_one {b : Bool} : BitVec.ofBool b = 1#1 ↔ b = true := by cases b <;> decide

/-- The pattern of +∞, the bound of the finiteness test, denotes ⊤. -/
theorem ofBits_posInf : Ideal.ofBits .f32 0x7F800000#32 = ⊤ := by
  simp [Ideal.ofBits, Ideal.ieee]

/-- An extended real whose absolute value max x (−x) is below +∞ is a real. -/
theorem real_of_abs_lt_top (x : EReal) (h : max x (-x) < ⊤) : ∃ r : ℝ, x = (r : EReal) := by
  obtain ⟨ha, hb⟩ := max_lt_iff.1 h
  refine ⟨x.toReal, (EReal.coe_toReal (ne_of_lt ha) ?_).symm⟩
  intro hbot
  rw [hbot] at hb
  exact absurd hb (by simp)

/-- Where the precondition holds, every coordinate is a real. -/
theorem finite_of_pre [Cert.Pre_finite_inputs.Facts]
    (x0 : (⟨Cert.Pre_finite_inputs.S16x32768x64, .f32⟩ : BufTy).Contents (Elt Ideal))
    (x1 : (⟨Cert.Pre_finite_inputs.S16x32768x3, .f32⟩ : BufTy).Contents (Elt Ideal))
    (h : Cert.Pre_finite_inputs.fn (F := Ideal) x0 x1 = fun _ => 1#1) :
    ∀ i, ∃ r : ℝ, x1 i = (r : EReal) := by
  intro i
  have h0 := congrFun h ValueIdx.ix0
  dsimp only [Cert.Pre_finite_inputs.fn] at h0
  obtain ⟨_, h2⟩ := IntOp.andi_eq_one.1 h0
  have h3 := Host.reduce_andi_all _ _ _ _ _ h2 i
  have h4 : Ideal.cmp .olt (max (x1 i) (-(x1 i))) (Ideal.ofBits .f32 0x7F800000#32) = 1#1 := h3
  rw [ofBits_posInf] at h4
  have h5 : max (x1 i) (-(x1 i)) < ⊤ := by
    unfold Ideal.cmp at h4
    exact of_decide_eq_true (ofBool_eq_one.1 h4)
  exact real_of_abs_lt_top _ h5

/-- The same for the features array (the precondition's first test). -/
theorem finite_of_pre₀ [Cert.Pre_finite_inputs.Facts]
    (x0 : (⟨Cert.Pre_finite_inputs.S16x32768x64, .f32⟩ : BufTy).Contents (Elt Ideal))
    (x1 : (⟨Cert.Pre_finite_inputs.S16x32768x3, .f32⟩ : BufTy).Contents (Elt Ideal))
    (h : Cert.Pre_finite_inputs.fn (F := Ideal) x0 x1 = fun _ => 1#1) :
    ∀ i, ∃ r : ℝ, x0 i = (r : EReal) := by
  intro i
  have h0 := congrFun h ValueIdx.ix0
  dsimp only [Cert.Pre_finite_inputs.fn] at h0
  obtain ⟨h1, _⟩ := IntOp.andi_eq_one.1 h0
  have h3 := Host.reduce_andi_all _ _ _ _ _ h1 i
  have h4 : Ideal.cmp .olt (max (x0 i) (-(x0 i))) (Ideal.ofBits .f32 0x7F800000#32) = 1#1 := h3
  rw [ofBits_posInf] at h4
  have h5 : max (x0 i) (-(x0 i)) < ⊤ := by
    unfold Ideal.cmp at h4
    exact of_decide_eq_true (ofBool_eq_one.1 h4)
  exact real_of_abs_lt_top _ h5

end Cert.FiniteInputs

end
-- ==== Proof.KernelLoop.lean ====
/-
  What one grid point of the voxel-scatter kernel leaves in its output block, as a pure term, at any float instance.

  The body zero-fills a [64, 1024] accumulator, then runs 32 trips; trip `k` loads rows `1024·k … 1024·k + 1023` of the
  point's feature block and the same stretch of its voxel-index block, and adds to the accumulator the product of the
  transposed feature rows with the one-hot matrix of the indices against the point's 1024 voxel numbers; after the
  loop the accumulator is copied to the output block. Hence the output block is the last shape cast applied to the
  32-fold iterate `accum … 32` of the trip's arithmetic started at the zero fill.
-/
import proofs.«170821_j87144886436561_2_alg».proof.Proof.Gen.KernelIdeal.Frame
import Idealize.ShloMosaic.Lib.Pipeline.Value

set_option maxRecDepth 16384

noncomputable section

namespace Cert.KernelIdeal.Voxel

open Cert.KernelIdeal Cert.KernelIdeal.Gen
open Idealize.ShloMosaic Idealize.ShloMosaic.TcCoe Idealize.ShloMosaic.Tactic
open Idealize.SL Idealize.SL.Sem

variable {F : FTy → Type} [FloatOps F]

/-- One trip's arithmetic on the accumulator `a`: the stretch `k` of the feature block `x1` and of the index block
    `x0`, through the trip's payload; past the last trip, the accumulator itself. -/
def accumStep (i : grid0.Coords) (x0 : Vec F S1x1x32768 .i32) (x1 : Vec F S1x32768x64 .f32) (k : ℕ)
    (a : Vec F S64x1024 .f32) : Vec F S64x1024 .f32 :=
  if h : k < k0_t1_loop.trips then
    k0_pay2 i (View.ld x1 (Rect.unit (s := S1x32768x64) (k0_off1 ⟨k, h⟩) S1x1024x64.size (k0_off1_inb ⟨k, h⟩)))
      (View.ld x0 (Rect.unit (s := S1x1x32768) (k0_off2 ⟨k, h⟩) S1x1x1024.size (k0_off2_inb ⟨k, h⟩))) a
  else a

/-- The accumulator before trip `k`: the zero fill, then one trip's arithmetic per trip. -/
def accum (i : grid0.Coords) (x0 : Vec F S1x1x32768 .i32) (x1 : Vec F S1x32768x64 .f32) : ℕ → Vec F S64x1024 .f32
  | 0 => k0_pay1 (F := F)
  | k + 1 => accumStep i x0 x1 k (accum i x0 x1 k)

theorem accum_succ (i : grid0.Coords) (x0 : Vec F S1x1x32768 .i32) (x1 : Vec F S1x32768x64 .f32)
    (k : Fin k0_t1_loop.trips) :
    accum i x0 x1 (k.val + 1)
      = k0_pay2 i (View.ld x1 (Rect.unit (s := S1x32768x64) (k0_off1 k) S1x1024x64.size (k0_off1_inb k)))
          (View.ld x0 (Rect.unit (s := S1x1x32768) (k0_off2 k) S1x1x1024.size (k0_off2_inb k))) (accum i x0 x1 k.val) := by
  rw [accum.eq_2]; unfold accumStep; exact dif_pos k.isLt

/-- The whole-accumulator rectangle holds every index. -/
theorem whole_mem (y : S64x1024.Idx) :
    y ∈ (Rect.unit (s := S64x1024) ![0, 0] S64x1024.size inb_S64x1024_S64x1024_0_0).set :=
  View.mem_set_unit_zero (by decide) _ y

/-- One store of the whole accumulator, read back, is its payload, whatever the buffer held. -/
theorem read_store_whole {κ : Kind} {sp : Space} (v : View sig κ sp S64x1024 .f32) (f : v.ty.Contents (Elt F))
    (w : S64x1024.Idx → Elt F .f32) :
    v.read (Elt F) (v.writes (Elt F) f
      [(⟨Rect.unit (s := S64x1024) ![0, 0] S64x1024.size inb_S64x1024_S64x1024_0_0, w⟩ : View.Piece (Elt F) S64x1024 .f32)]) = w := by
  rw [View.read_writes_eq_canon v f _ (fun y => ⟨⟨Rect.unit (s := S64x1024) ![0, 0] S64x1024.size inb_S64x1024_S64x1024_0_0, w⟩,
    List.mem_singleton_self _, whole_mem y⟩)]
  exact View.canon_unit_zero (by decide) _ w

/-- One trip's piece list, at the contents the trip finds: one store of the whole accumulator. -/
theorem tripL_eq (c : Dev nD) (i : grid0.Coords) (arg2 : Memref sig .tc .vmem S1x1x32768 .i32) (harg2 : arg2.IsWhole)
    (arg3 : Memref sig .tc .vmem S1x32768x64 .f32) (harg3 : arg3.IsWhole) (arg4 : Memref sig .tc .vmem S1x64x1024 .f32)
    (harg4 : arg4.IsWhole) (arg5 : Memref sig .tc .vmem S64x1024 .f32) (harg5 : arg5.IsWhole)
    (X2 : BufTy.Contents (Elt F) arg2.view.ty) (X3 : BufTy.Contents (Elt F) arg3.view.ty) (k : Fin k0_t1_loop.trips)
    (f : BufTy.Contents (Elt F) arg5.view.ty) :
    tripL_k0_t1 (F := F) Variants.none c none i arg2 harg2 arg3 harg3 arg4 harg4 arg5 harg5 X2 X3 k f
      = [⟨Rect.unit (s := S64x1024) ![0, 0] S64x1024.size inb_S64x1024_S64x1024_0_0,
          k0_pay2 i (View.ld (arg3.view.read (Elt F) X3) (Rect.unit (s := S1x32768x64) (k0_off1 k) S1x1024x64.size (k0_off1_inb k)))
            (View.ld (arg2.view.read (Elt F) X2) (Rect.unit (s := S1x1x32768) (k0_off2 k) S1x1x1024.size (k0_off2_inb k)))
            (arg5.view.read (Elt F) f)⟩] := by
  unfold tripL_k0_t1 trip_k0_t1
  dsimp only
  simp only [View.readAt_eq_ld, View.ld_unit_zero (S := S64x1024) (by decide : (![0, 0] : Fin 2 → ℕ) = fun _ => 0)]

/-- The accumulator memref, read after the trips before `k`, holds `accum … k`. -/
theorem read_pb (c : Dev nD) (i : grid0.Coords) (arg2 : Memref sig .tc .vmem S1x1x32768 .i32) (harg2 : arg2.IsWhole)
    (arg3 : Memref sig .tc .vmem S1x32768x64 .f32) (harg3 : arg3.IsWhole) (arg4 : Memref sig .tc .vmem S1x64x1024 .f32)
    (harg4 : arg4.IsWhole) (arg5 : Memref sig .tc .vmem S64x1024 .f32) (harg5 : arg5.IsWhole)
    (x0 : Vec F S1x1x32768 .i32) (x1 : Vec F S1x32768x64 .f32) :
    ∀ k : ℕ, k ≤ k0_t1_loop.trips →
      arg5.view.read (Elt F) (arg5.view.writes (Elt F)
        (arg5.view.writes (Elt F) arg5.view.junk kernelRun0_A.sl.HS0_1)
        (pb_k0_t1 (F := F) Variants.none c none i arg2 harg2 arg3 harg3 arg4 harg4 arg5 harg5 (harg2.unread x0) (harg3.unread x1)
          (arg5.view.writes (Elt F) arg5.view.junk kernelRun0_A.sl.HS0_1) k))
      = accum i x0 x1 k
  | 0, _ => by
    rw [pb_k0_t1.eq_1, View.writes_nil, accum.eq_1]
    unfold kernelRun0_A.sl.HS0_1
    exact read_store_whole _ _ _
  | k + 1, hk => by
    have hk' : k < k0_t1_loop.trips := hk
    have ih := read_pb c i arg2 harg2 arg3 harg3 arg4 harg4 arg5 harg5 x0 x1 k (Nat.le_of_lt hk')
    rw [show k + 1 = (⟨k, hk'⟩ : Fin k0_t1_loop.trips).val + 1 from rfl, pb_k0_t1_succ, View.writes_append, tripL_eq,
      read_store_whole, accum_succ, harg2.read_unread, harg3.read_unread]
    exact congrArg _ ih

/-- What the body leaves in the output block: the last shape cast of the accumulator after all the trips. -/
theorem out_eq (c : Dev nD) (i : grid0.Coords) (arg2 : Memref sig .tc .vmem S1x1x32768 .i32) (harg2 : arg2.IsWhole)
    (arg3 : Memref sig .tc .vmem S1x32768x64 .f32) (harg3 : arg3.IsWhole) (arg4 : Memref sig .tc .vmem S1x64x1024 .f32)
    (harg4 : arg4.IsWhole) (arg5 : Memref sig .tc .vmem S64x1024 .f32) (harg5 : arg5.IsWhole)
    (x0 : Vec F S1x1x32768 .i32) (x1 : Vec F S1x32768x64 .f32) :
    out0_A_2 c i arg2 harg2 arg3 harg3 arg4 harg4 arg5 harg5 x0 x1 = k0_pay3 (accum i x0 x1 k0_t1_loop.trips) := by
  unfold out0_A_2
  rw [View.read_writes_eq_canon _ _ _ (cover0_A_2 c i arg2 harg2 arg3 harg3 arg4 harg4 arg5 harg5 x0 x1)]
  unfold kernelRun0_A
  dsimp only
  rw [View.canon_unit_zero (by decide)]
  refine congrArg k0_pay3 ?_
  unfold kernelRun0_A.sl.v6
  rw [View.readAt_eq_ld, View.ld_unit_zero (S := S64x1024) (by decide : (![0, 0] : Fin 2 → ℕ) = fun _ => 0),
    View.writes_append]
  exact read_pb c i arg2 harg2 arg3 harg3 arg4 harg4 arg5 harg5 x0 x1 _ (Nat.le_refl _)

end Cert.KernelIdeal.Voxel

end
-- ==== Proof.LibContractFirst.lean ====
/-
  A product that contracts the FIRST axis of both operands, read at an index.

  For an `n × a` matrix `l` and an `n × c` matrix `r`, contracting the first axis of each gives the `a × c` matrix
  whose entry `(p, q)` is the sum over `k` of `l (k, p) * r (k, q)`: the transpose of `l` times `r`, with no
  transpose ever formed.  The contraction's own index type is re-indexed by the shared coordinate `k`.
-/
import Idealize.ShloMosaic.Lib.ValueIdx
import Idealize.ShloMosaic.PureOps.Ideal.Laws

namespace Cert.LibContractFirst

open Idealize.ShloMosaic Idealize.ShloMosaic.ValueIdx

/-- The contraction's sum re-indexed by the shared first coordinate, when the operand indices at an output index
    `(p, q)` and a contraction position `k` are `(k, p)` and `(k, q)`. -/
theorem sum_contr_first {n a c : ℕ} (D : DotDims ⟨2, ![n, a]⟩ ⟨2, ![n, c]⟩ ⟨2, ![a, c]⟩) (hrk : D.contr.rank = 1)
    (hsz : D.contr.size ⟨0, by omega⟩ = n)
    (hl0 : ∀ j k, (D.lhsIdx j k (0 : Fin 2)).val = (k ⟨0, by omega⟩).val)
    (hl1 : ∀ j k, (D.lhsIdx j k (1 : Fin 2)).val = (j (0 : Fin 2)).val)
    (hr0 : ∀ j k, (D.rhsIdx j k (0 : Fin 2)).val = (k ⟨0, by omega⟩).val)
    (hr1 : ∀ j k, (D.rhsIdx j k (1 : Fin 2)).val = (j (1 : Fin 2)).val)
    (l : (⟨2, ![n, a]⟩ : Shape).Idx → EReal) (r : (⟨2, ![n, c]⟩ : Shape).Idx → EReal) (p : Fin a) (q : Fin c) :
    ∑ k : D.contr.Idx, l (D.lhsIdx (ix2 p q) k) * r (D.rhsIdx (ix2 p q) k) = ∑ k : Fin n, l (ix2 k p) * r (ix2 k q) := by
  rw [← Equiv.sum_comp (contrEquiv1 D n hrk hsz).symm]
  refine Finset.sum_congr rfl fun k _ => ?_
  have e1 : D.lhsIdx (ix2 p q) ((contrEquiv1 D n hrk hsz).symm k) = ix2 k p := by
    funext ax
    apply Fin.ext
    match ax with
    | ⟨0, _⟩ => exact (hl0 _ _).trans (contrEquiv1_symm_val D n hrk hsz k)
    | ⟨1, _⟩ => exact hl1 _ _
  have e2 : D.rhsIdx (ix2 p q) ((contrEquiv1 D n hrk hsz).symm k) = ix2 k q := by
    funext ax
    apply Fin.ext
    match ax with
    | ⟨0, _⟩ => exact (hr0 _ _).trans (contrEquiv1_symm_val D n hrk hsz k)
    | ⟨1, _⟩ => exact hr1 _ _
  rw [e1, e2]

end Cert.LibContractFirst
-- ==== Proof.LibColumn.lean ====
/-
  A sum kept as a column: the two layout steps every `sum(axis=1, keepdims=True)` meets, read at an index.

  A vector of `a` entries viewed as an `a × 1` column has, at `(i, 0)`, the vector's entry `i`; and an `a × 1`
  column repeated along `b` columns has, at `(p, c)`, the column's entry `p`.  (Their companions for a row — a
  vector viewed `1 × a`, a `1 × b` row repeated along `a` rows — are in the library's layout file.)
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelPoint.lean ====
/-
  One trip's arithmetic of the voxel-scatter kernel read at an index, at the extended reals.

  Trip payload at entry `(p, q)` of the [64, 1024] accumulator: the accumulator's entry plus the sum over the 1024
  points `k` of the stretch of the feature entry `(k, p)` times the one-hot entry, which is `1` when point `k`'s voxel
  index equals the tile's base `1024 · (tile number)` plus `q` (in 32-bit words) and `0` otherwise.  The matrix product
  contracts the point axis of both operands; changes of float format are the identity on the extended reals.
-/
import proofs.«170821_j87144886436561_2_alg».proof.Proof.Gen.KernelIdeal.Skeleton
import proofs.«170821_j87144886436561_2_alg».proof.Proof.LibContractFirst
import proofs.«170821_j87144886436561_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Voxel

open Cert.KernelIdeal Cert.KernelIdeal.Gen
open Idealize.ShloMosaic Idealize.ShloMosaic.ValueIdx

/-- The one-hot entry on the extended reals: `1` where the two words agree, `0` elsewhere. -/
def hot (w v : BitVec 32) : EReal := if w = v then 1 else 0

/-- The comparison's bit, widened and read as a float, is the one-hot entry. -/
theorem sitofp_cmpi_eq (w v : BitVec 32) :
    FloatOps.sitofp (F := Ideal) .f32 ((IntOp.cmpi .eq w v).setWidth 32) = hot w v := by
  show (((((IntOp.cmpi .eq w v).setWidth 32).toInt : ℤ) : ℝ) : EReal) = hot w v
  unfold hot IntOp.cmpi
  by_cases h : w = v
  · subst h; simp
  · have hb : (w == v) = false := by simpa using h
    simp [h, hb]

local notation "D₀" => dot_S1024x64_S1024x1024_S64x1024_0_0_1_1_n_n

theorem D_rank : (D₀).contr.rank = 1 := rfl
theorem D_size : (D₀).contr.size ⟨0, by decide⟩ = 1024 := rfl
theorem D_l0 (j : S64x1024.Idx) (k : (D₀).contr.Idx) : ((D₀).lhsIdx j k (0 : Fin 2)).val = (k ⟨0, by decide⟩).val := by
  simp [DotDims.lhsIdx, dot_S1024x64_S1024x1024_S64x1024_0_0_1_1_n_n]; rfl
theorem D_l1 (j : S64x1024.Idx) (k : (D₀).contr.Idx) : ((D₀).lhsIdx j k (1 : Fin 2)).val = (j (0 : Fin 2)).val := by
  simp [DotDims.lhsIdx, dot_S1024x64_S1024x1024_S64x1024_0_0_1_1_n_n]; rfl
theorem D_r0 (j : S64x1024.Idx) (k : (D₀).contr.Idx) : ((D₀).rhsIdx j k (0 : Fin 2)).val = (k ⟨0, by decide⟩).val := by
  simp [DotDims.rhsIdx, dot_S1024x64_S1024x1024_S64x1024_0_0_1_1_n_n]; rfl
theorem D_r1 (j : S64x1024.Idx) (k : (D₀).contr.Idx) : ((D₀).rhsIdx j k (1 : Fin 2)).val = (j (1 : Fin 2)).val := by
  simp [DotDims.rhsIdx, dot_S1024x64_S1024x1024_S64x1024_0_0_1_1_n_n]; rfl

/-- The tile's voxel number at column `q`, as the body computes it: `1024 · (tile number) + q` in 32-bit words. -/
def voxWord (i : grid0.Coords) (q : Fin 1024) : BitVec 32 :=
  IntOp.addi (Scalar.muli (BitVec.ofNat 32 (i 1).val) 1024#32) (BitVec.ofNat 32 q.val)

/-- One trip's payload at an entry of the accumulator. -/
theorem pay2_apply (i : grid0.Coords) (v13 : Vec Ideal S1x1024x64 .f32) (v16 : Vec Ideal S1x1x1024 .i32)
    (v29 : Vec Ideal S64x1024 .f32) (p : Fin 64) (q : Fin 1024) :
    k0_pay2 (F := Ideal) i v13 v16 v29 (ix2 p q)
      = v29 (ix2 p q) + ∑ k : Fin 1024, v13 (ix3 (0 : Fin 1) k p) * hot (v16 (ix3 (0 : Fin 1) (0 : Fin 1) k)) (voxWord i q) := by
  unfold k0_pay2
  dsimp only
  rw [shapeCast_self, addf_apply]
  refine congrArg (v29 (ix2 p q) + ·) ?_
  refine (Ideal.matmul_constant_zero_apply (D₀) none _ _ (ix2 p q)).trans ?_
  rw [Cert.LibContractFirst.sum_contr_first (D₀) D_rank D_size D_l0 D_l1 D_r0 D_r1]
  refine Finset.sum_congr rfl fun k _ => ?_
  rw [truncf_apply, truncf_apply, shapeCast_1ab_ab_apply, sitofp_apply, extui_apply]
  refine congrArg (v13 (ix3 (0 : Fin 1) k p) * ·) ?_
  rw [← sitofp_cmpi_eq]
  refine congrArg (fun b : BitVec 1 => FloatOps.sitofp (F := Ideal) .f32 (b.setWidth 32)) ?_
  show IntOp.cmpi .eq _ _ = IntOp.cmpi .eq _ _
  refine congrArg₂ (IntOp.cmpi .eq) ?_ ?_
  · rw [Cert.LibColumn.broadcastTo_a1_ab_apply, Cert.LibColumn.shapeCast_a_a1_apply]
    exact shapeCast_apply v16 _ _ _ (by
      rw [Shape.rowMajor_val_one, Shape.rowMajor_val_three]
      show (0 * 1 + 0) * 1024 + k.val = k.val
      omega)
  · show IntOp.addi _ _ = _
    unfold voxWord
    refine congrArg₂ IntOp.addi rfl ?_
    exact iota_single_apply .tc S1024x1024 32 1 _ (ix2 k q)

end Cert.KernelIdeal.Voxel

end
-- ==== Proof.KernelBlock.lean ====
/-
  The accumulator of the voxel-scatter kernel after its trips, read at an entry, at the extended reals.

  After `K` trips the entry `(p, q)` of the accumulator is the sum, over the first `1024 · K` points `n` of the point's
  feature block, of the feature entry `(n, p)` times the one-hot entry of point `n`'s voxel index against the tile's
  voxel number at column `q`: trip `k` adds the stretch `1024·k … 1024·k + 1023`, and the zero fill is the empty sum.
  After all 32 trips it is the sum over all 32768 points.
-/
import proofs.«170821_j87144886436561_2_alg».proof.Proof.KernelLoop
import proofs.«170821_j87144886436561_2_alg».proof.Proof.KernelPoint

noncomputable section

namespace Cert.KernelIdeal.Voxel

open Cert.KernelIdeal Cert.KernelIdeal.Gen
open Idealize.ShloMosaic Idealize.ShloMosaic.ValueIdx

/-- Point `n`'s contribution to entry `(p, q)`, as a function of a natural number (zero past the block). -/
def term (i : grid0.Coords) (x0 : Vec Ideal S1x1x32768 .i32) (x1 : Vec Ideal S1x32768x64 .f32) (p : Fin 64) (q : Fin 1024)
    (n : ℕ) : EReal :=
  if h : n < 32768 then x1 (ix3 (0 : Fin 1) (⟨n, h⟩ : Fin 32768) p) * hot (x0 (ix3 (0 : Fin 1) (0 : Fin 1) (⟨n, h⟩ : Fin 32768))) (voxWord i q) else 0

theorem trips_eq : k0_t1_loop.trips = 32 := by decide

/-- The zero fill at an entry. -/
theorem pay1_apply (j : S64x1024.Idx) : k0_pay1 (F := Ideal) j = 0 := by
  unfold k0_pay1
  rw [shapeCast_self, broadcast_apply]
  exact Ideal.ofBits_zero_f32

/-- The trip's stretch of the feature block, at an entry. -/
theorem ld_feat (x1 : Vec Ideal S1x32768x64 .f32) (k : Fin k0_t1_loop.trips) (n' : Fin 1024) (p : Fin 64)
    (h : 1024 * k.val + n'.val < 32768) :
    View.ld x1 (Rect.unit (s := S1x32768x64) (k0_off1 k) S1x1024x64.size (k0_off1_inb k)) (ix3 (0 : Fin 1) n' p)
      = x1 (ix3 (0 : Fin 1) (⟨1024 * k.val + n'.val, h⟩ : Fin 32768) p) := by
  show x1 _ = x1 _
  refine congrArg x1 (funext fun a => Fin.ext ?_)
  have e := k0_off1_eq k
  match a with
  | ⟨0, _⟩ => show (k0_off1 k) 0 + 1 * 0 = 0; rw [e]; rfl
  | ⟨1, _⟩ => show (k0_off1 k) 1 + 1 * n'.val = 1024 * k.val + n'.val; rw [e]; show 1024 * k.val + 1 * n'.val = _; omega
  | ⟨2, _⟩ => show (k0_off1 k) 2 + 1 * p.val = p.val; rw [e]; show 0 + 1 * p.val = _; omega

/-- The trip's stretch of the voxel-index block, at an entry. -/
theorem ld_idx (x0 : Vec Ideal S1x1x32768 .i32) (k : Fin k0_t1_loop.trips) (n' : Fin 1024)
    (h : 1024 * k.val + n'.val < 32768) :
    View.ld x0 (Rect.unit (s := S1x1x32768) (k0_off2 k) S1x1x1024.size (k0_off2_inb k)) (ix3 (0 : Fin 1) (0 : Fin 1) n')
      = x0 (ix3 (0 : Fin 1) (0 : Fin 1) (⟨1024 * k.val + n'.val, h⟩ : Fin 32768)) := by
  show x0 _ = x0 _
  refine congrArg x0 (funext fun a => Fin.ext ?_)
  have e := k0_off2_eq k
  match a with
  | ⟨0, _⟩ => show (k0_off2 k) 0 + 1 * 0 = 0; rw [e]; rfl
  | ⟨1, _⟩ => show (k0_off2 k) 1 + 1 * 0 = 0; rw [e]; rfl
  | ⟨2, _⟩ => show (k0_off2 k) 2 + 1 * n'.val = 1024 * k.val + n'.val; rw [e]; show 1024 * k.val + 1 * n'.val = _; omega

/-- The accumulator before trip `K`, at an entry: the contributions of the points before `1024 · K`. -/
theorem accum_apply (i : grid0.Coords) (x0 : Vec Ideal S1x1x32768 .i32) (x1 : Vec Ideal S1x32768x64 .f32) (p : Fin 64)
    (q : Fin 1024) : ∀ K : ℕ, K ≤ k0_t1_loop.trips →
      accum (F := Ideal) i x0 x1 K (ix2 p q) = ∑ n ∈ Finset.range (1024 * K), term i x0 x1 p q n
  | 0, _ => by rw [accum.eq_1, pay1_apply]; simp
  | K + 1, hK => by
    have hK' : K < k0_t1_loop.trips := hK
    have hK32 : K < 32 := trips_eq ▸ hK'
    have ih := accum_apply i x0 x1 p q K (Nat.le_of_lt hK')
    have hs : ∑ x ∈ Finset.range 1024, term i x0 x1 p q (1024 * K + x) = ∑ n' : Fin 1024, term i x0 x1 p q (1024 * K + n'.val) :=
      (Fin.sum_univ_eq_sum_range (fun n' => term i x0 x1 p q (1024 * K + n')) 1024).symm
    rw [show K + 1 = (⟨K, hK'⟩ : Fin k0_t1_loop.trips).val + 1 from rfl, accum_succ, pay2_apply, ih,
      show 1024 * ((⟨K, hK'⟩ : Fin k0_t1_loop.trips).val + 1) = 1024 * K + 1024 from by show 1024 * (K + 1) = _; omega,
      Finset.sum_range_add, hs]
    refine congrArg (_ + ·) (Finset.sum_congr rfl fun n' _ => ?_)
    have hn : 1024 * K + n'.val < 32768 := by have := n'.isLt; omega
    rw [ld_feat x1 ⟨K, hK'⟩ n' p hn, ld_idx x0 ⟨K, hK'⟩ n' hn]
    unfold term
    rw [dif_pos hn]

/-- After all the trips: the sum over every point of the block. -/
theorem accum_final (i : grid0.Coords) (x0 : Vec Ideal S1x1x32768 .i32) (x1 : Vec Ideal S1x32768x64 .f32) (p : Fin 64)
    (q : Fin 1024) :
    accum (F := Ideal) i x0 x1 k0_t1_loop.trips (ix2 p q)
      = ∑ n : Fin 32768, x1 (ix3 (0 : Fin 1) n p) * hot (x0 (ix3 (0 : Fin 1) (0 : Fin 1) n)) (voxWord i q) := by
  rw [accum_apply i x0 x1 p q _ (Nat.le_refl _), trips_eq,
    ← Fin.sum_univ_eq_sum_range (fun n => term i x0 x1 p q n) (1024 * 32)]
  refine Finset.sum_congr rfl fun n _ => ?_
  unfold term
  rw [dif_pos n.isLt]

end Cert.KernelIdeal.Voxel

end
-- ==== Proof.KernelArray.lean ====
/-
  The array the voxel-scatter kernel leaves, as one function of the arrays the region finds, at the extended reals.

  Grid point `t = 32·b + r` handles batch `b` and voxel tile `r`: it reads the whole voxel-index row and the whole feature
  block of batch `b`, and writes back the [64, 1024] tile whose entry `(p, q)` is the sum over the batch's 32768 points
  `n` of the feature `(b, n, p)` times the one-hot entry of point `n`'s voxel index against the voxel number
  `1024·r + q`.  The tiles of all 512 points fill the [16, 64, 32768] array, which therefore holds `scat`: at
  `(b, p, v)` the sum of the features `(b, n, p)` of the points `n` of batch `b` whose voxel index is `v`.
-/
import proofs.«170821_j87144886436561_2_alg».proof.Proof.KernelBlock

set_option maxRecDepth 16384

noncomputable section

namespace Cert.KernelIdeal.Voxel

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The scattered sums: at `(b, p, v)`, the features `(b, n, p)` summed over the points `n` whose voxel index is `v`. -/
def scat (feat : (⟨S16x32768x64, .f32⟩ : BufTy).Contents (Elt Ideal)) (idx : (⟨S16x1x32768, .i32⟩ : BufTy).Contents (Elt Ideal)) :
    (⟨S16x64x32768, .f32⟩ : BufTy).Contents (Elt Ideal) :=
  fun j => ∑ n : Fin 32768, feat (ix3 (j 0) n (j 1)) * hot (idx (ix3 (j 0) (0 : Fin 1) n)) (BitVec.ofNat 32 (j 2).val)

/-- The tile's voxel number is `1024 · (tile number) + q`. -/
theorem voxWord_eq (i : grid0.Coords) (q : Fin 1024) : voxWord i q = BitVec.ofNat 32 ((i 1).val * 1024 + q.val) := by
  unfold voxWord
  show BitVec.ofNat 32 (i 1).val * 1024#32 + BitVec.ofNat 32 q.val = _
  rw [BitVec.ofNat_add, BitVec.ofNat_mul]

/-- The output block a point leaves, at an entry, over any blocks. -/
theorem block_apply (i : grid0.Coords) (x0 : Vec Ideal S1x1x32768 .i32) (x1 : Vec Ideal S1x32768x64 .f32) (j : S1x64x1024.Idx) :
    k0_pay3 (F := Ideal) (accum i x0 x1 k0_t1_loop.trips) j
      = ∑ n : Fin 32768, x1 (ix3 (0 : Fin 1) n (j 1)) * hot (x0 (ix3 (0 : Fin 1) (0 : Fin 1) n)) (BitVec.ofNat 32 ((i 1).val * 1024 + (j 2).val)) := by
  obtain ⟨a, b, d, rfl⟩ : ∃ (a : Fin 1) (b : Fin 64) (d : Fin 1024), j = ix3 a b d := ⟨j 0, j 1, j 2, eq_ix3 j⟩
  unfold k0_pay3
  refine (shapeCast_ab_1ab_apply _ _ a b d).trans ?_
  rw [accum_final, voxWord_eq]

-- The printed index maps, decided over the grid: point `t` is batch `t / 32`, tile `t % 32`.
set_option maxRecDepth 100000 in
theorem idx_facts0 : ∀ t : Fin cfg0.N,
    win0_0.index t (0 : Fin 3) = t.val / 32 ∧ win0_0.index t (1 : Fin 3) = 0 ∧ win0_0.index t (2 : Fin 3) = 0 :=
  (by decide +kernel : ∀ t : Fin grid0.N, _)
set_option maxRecDepth 100000 in
theorem idx_facts1 : ∀ t : Fin cfg0.N,
    win0_1.index t (0 : Fin 3) = t.val / 32 ∧ win0_1.index t (1 : Fin 3) = 0 ∧ win0_1.index t (2 : Fin 3) = 0 :=
  (by decide +kernel : ∀ t : Fin grid0.N, _)
set_option maxRecDepth 100000 in
theorem idx_facts2 : ∀ t : Fin cfg0.N,
    win0_2.index t (0 : Fin 3) = t.val / 32 ∧ win0_2.index t (1 : Fin 3) = 0 ∧ win0_2.index t (2 : Fin 3) = t.val % 32 :=
  (by decide +kernel : ∀ t : Fin grid0.N, _)
set_option maxRecDepth 100000 in
theorem idx_facts3 : ∀ t : Fin cfg0.N, ((grid0.coords t) 1).val = t.val % 32 :=
  (by decide +kernel : ∀ t : Fin grid0.N, _)
/-- The printed index maps over the grid: point `t` is batch `t / 32`, tile `t % 32`. -/
theorem idx_facts (t : Fin cfg0.N) :
    win0_0.index t (0 : Fin 3) = t.val / 32 ∧ win0_0.index t (1 : Fin 3) = 0 ∧ win0_0.index t (2 : Fin 3) = 0
    ∧ win0_1.index t (0 : Fin 3) = t.val / 32 ∧ win0_1.index t (1 : Fin 3) = 0 ∧ win0_1.index t (2 : Fin 3) = 0
    ∧ win0_2.index t (0 : Fin 3) = t.val / 32 ∧ win0_2.index t (1 : Fin 3) = 0 ∧ win0_2.index t (2 : Fin 3) = t.val % 32
    ∧ ((grid0.coords t) 1).val = t.val % 32 :=
  ⟨(idx_facts0 t).1, (idx_facts0 t).2.1, (idx_facts0 t).2.2, (idx_facts1 t).1, (idx_facts1 t).2.1, (idx_facts1 t).2.2,
    (idx_facts2 t).1, (idx_facts2 t).2.1, (idx_facts2 t).2.2, idx_facts3 t⟩

variable (m : (ℓ : Loc nD τ sig) → Buf (Elt Ideal) ℓ)

set_option maxRecDepth 200000 in
/-- What point `t` writes back is block `t` of the scattered sums of the arrays the region finds. -/
theorem flushed_eq (c : Dev nD) (t : Fin cfg0.N) :
    (dats m 0 c).flushed 2 t = ((cfg0.win 2).blk t).view.read (Elt Ideal) (scat (V m c main_arg0) (V m c main_v45)) := by
  show (cfg0.win 2).cut (grid0.coords t) ((dats m 0 c).after 2 t) = _
  rw [after0_2]
  unfold outsAt0
  rw [out_eq]
  obtain ⟨a0, a1, a2, b0, b1, b2, c0, c1, c2, hr⟩ := idx_facts t
  refine funext fun j => ?_
  show k0_pay3 (F := Ideal) (accum (grid0.coords t) (iblk m c 0 t) (iblk m c 1 t) k0_t1_loop.trips) j
    = scat (V m c main_arg0) (V m c main_v45) (((cfg0.win 2).blk t).view.emb j)
  refine (block_apply (grid0.coords t) (iblk m c 0 t) (iblk m c 1 t) j).trans ?_
  unfold scat
  refine Finset.sum_congr rfl fun n _ => ?_
  have hj0 : (j 0).val < 1 := (j 0).isLt
  have hj1 : (j 1).val < 64 := (j 1).isLt
  have hj2 : (j 2).val < 1024 := (j 2).isLt
  have e1 : iblk m c 1 t (ix3 (0 : Fin 1) n (j 1))
      = V m c main_arg0 (ix3 ((((cfg0.win 2).blk t).view.emb j) 0) n ((((cfg0.win 2).blk t).view.emb j) 1)) := by
    show V m c main_arg0 (((cfg0.win 1).blk t).view.emb (ix3 (0 : Fin 1) n (j 1))) = _
    refine congrArg (V m c main_arg0) (funext fun a => Fin.ext ?_)
    match a with
    | ⟨0, _⟩ => show win0_1.index t (0 : Fin 3) * 1 + 1 * 0 = win0_2.index t (0 : Fin 3) * 1 + 1 * (j 0).val; omega
    | ⟨1, _⟩ => show win0_1.index t (1 : Fin 3) * 32768 + 1 * n.val = n.val; omega
    | ⟨2, _⟩ => show win0_1.index t (2 : Fin 3) * 64 + 1 * (j 1).val = win0_2.index t (1 : Fin 3) * 64 + 1 * (j 1).val; omega
  have e0 : iblk m c 0 t (ix3 (0 : Fin 1) (0 : Fin 1) n)
      = V m c main_v45 (ix3 ((((cfg0.win 2).blk t).view.emb j) 0) (0 : Fin 1) n) := by
    show V m c main_v45 (((cfg0.win 0).blk t).view.emb (ix3 (0 : Fin 1) (0 : Fin 1) n)) = _
    refine congrArg (V m c main_v45) (funext fun a => Fin.ext ?_)
    match a with
    | ⟨0, _⟩ => show win0_0.index t (0 : Fin 3) * 1 + 1 * 0 = win0_2.index t (0 : Fin 3) * 1 + 1 * (j 0).val; omega
    | ⟨1, _⟩ => show win0_0.index t (1 : Fin 3) * 1 + 1 * 0 = 0; omega
    | ⟨2, _⟩ => show win0_0.index t (2 : Fin 3) * 32768 + 1 * n.val = n.val; omega
  have e2 : ((grid0.coords t) 1).val * 1024 + (j 2).val = ((((cfg0.win 2).blk t).view.emb j) 2).val := by
    show _ = win0_2.index t (2 : Fin 3) * 1024 + 1 * (j 2).val
    omega
  rw [e1, e0, e2]

/-- An index of the array is in point `t`'s block iff each coordinate is in the block's range on its axis. -/
theorem mem_blk (t : Fin cfg0.N) (i : S16x64x32768.Idx) :
    i ∈ ((cfg0.win 2).blk t).view.set ↔ ∀ a : Fin 3, win0_2.index t a * S1x64x1024.size a ≤ (i a).val
      ∧ (i a).val < win0_2.index t a * S1x64x1024.size a + S1x64x1024.size a := by
  show i ∈ ((View.whole main_v46).slice (win0_2.rect t)).set ↔ _
  rw [View.set_slice_whole, Rect.mem_set_unit]
  exact Iff.rfl

/-- Every index of the array is in the block of the point of its batch and tile. -/
theorem cover (i : S16x64x32768.Idx) :
    ∃ t : Fin cfg0.N, (cfg0.win 2).flush t = true ∧ i ∈ ((cfg0.win 2).blk t).view.set := by
  have h0 : (i 0).val < 16 := (i 0).isLt
  have h1 : (i 1).val < 64 := (i 1).isLt
  have h2 : (i 2).val < 32768 := (i 2).isLt
  have hN : (i 0).val * 32 + (i 2).val / 1024 < cfg0.N := by rw [show cfg0.N = 512 from N_0]; omega
  refine ⟨⟨(i 0).val * 32 + (i 2).val / 1024, hN⟩, flush0_2 _, ?_⟩
  obtain ⟨a0, a1, a2, b0, b1, b2, c0, c1, c2, hr⟩ := idx_facts ⟨(i 0).val * 32 + (i 2).val / 1024, hN⟩
  rw [mem_blk]
  intro a
  match a with
  | ⟨0, _⟩ =>
    show win0_2.index _ (0 : Fin 3) * 1 ≤ (i 0).val ∧ (i 0).val < win0_2.index _ (0 : Fin 3) * 1 + 1
    rw [c0]; show ((i 0).val * 32 + (i 2).val / 1024) / 32 * 1 ≤ _ ∧ _ < ((i 0).val * 32 + (i 2).val / 1024) / 32 * 1 + 1; omega
  | ⟨1, _⟩ =>
    show win0_2.index _ (1 : Fin 3) * 64 ≤ (i 1).val ∧ (i 1).val < win0_2.index _ (1 : Fin 3) * 64 + 64
    rw [c1]; omega
  | ⟨2, _⟩ =>
    show win0_2.index _ (2 : Fin 3) * 1024 ≤ (i 2).val ∧ (i 2).val < win0_2.index _ (2 : Fin 3) * 1024 + 1024
    rw [c2]; show ((i 0).val * 32 + (i 2).val / 1024) % 32 * 1024 ≤ _ ∧ _ < ((i 0).val * 32 + (i 2).val / 1024) % 32 * 1024 + 1024; omega

/-- The array after the run: the scattered sums of the arrays the region finds. -/
theorem final (c : Dev nD) : (dats m 0 c).arrAt 2 cfg0.N = scat (V m c main_arg0) (V m c main_v45) :=
  (dats m 0 c).arrAt_eq_of_cover 2 _ (fun t _ => flushed_eq m c t) cover

end Cert.KernelIdeal.Voxel

end
-- ==== Proof.KernelHostA.lean ====
/-
  The host lines of the kernel program before the launch, first stretch: up to the scaling of the normalized coordinates.

  The lines before the launch are read in two stretches so that the long float chain is named once: this module
  splits them and reads the first stretch — the normalized coordinates and their multiples by 31 are the reference's
  stages.
-/
import proofs.«170821_j87144886436561_2_alg».proof.Proof.Gen.KernelIdeal.Frame
import proofs.«170821_j87144886436561_2_alg».proof.Proof.Gen.ReferenceIdeal.Read
import Idealize.ShloMosaic.Lib.StableHlo.Run

set_option maxRecDepth 16384

noncomputable section

namespace Cert.KernelIdeal.Voxel

open Cert.KernelIdeal Cert.KernelIdeal.Gen
open Idealize.ShloMosaic Idealize.ShloMosaic.TcCoe Idealize.ShloMosaic.Tactic Idealize.ShloMosaic.StableHlo
open Idealize.SL Idealize.SL.Sem

/-- Two stretches of host lines run one after the other. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_append l₁ l₂]

variable (m : (ℓ : Loc nD τ sig) → Buf (Elt Ideal) ℓ)

/-- The buffer contents after the lines up to the scaling by 31. -/
def Wpre (c : Dev nD) : Valuation τ sig (Elt Ideal) :=
  StableHlo.after (List.flatten [hostOps0, hostOps0_1, hostOps0_2]) (fun b => m (c, b))

theorem flatten_split {α : Type} (a b c d e : List α) : List.flatten [a, b, c, d, e] = List.flatten [a, b, c] ++ (d ++ e) := by
  simp

theorem V0_split (c : Dev nD) : V0 m c = StableHlo.after (hostOps0_3 ++ hostOps0_4) (Wpre m c) := by
  show StableHlo.after (List.flatten [hostOps0, hostOps0_1, hostOps0_2, hostOps0_3, hostOps0_4]) (fun b => m (c, b)) = _
  rw [flatten_split, after_append]
  rfl

set_option maxHeartbeats 4000000 in
/-- The normalized coordinates, after the first stretch, are the reference's. -/
theorem Wpre_v16 (c : Dev nD) : (Wpre m c (Proc.devRef .tc main_v16) : S16x32768x3.Idx → EReal)
    = Cert.ReferenceIdeal.Read.val_main_v16 (F := Ideal) (m ((c : Thread nD τ).loc main_arg1)) := by
  unfold Wpre
  simp only [Gen.hostOps0, Gen.hostOps0_1, Gen.hostOps0_2, List.flatten_cons, List.flatten_nil,
    List.append_nil, List.cons_append, List.nil_append]
  after_results_simp
  rfl

set_option maxHeartbeats 4000000 in
/-- The scaled coordinates, after the first stretch, are the reference's. -/
theorem Wpre_v18 (c : Dev nD) : (Wpre m c (Proc.devRef .tc main_v18) : S16x32768x3.Idx → EReal)
    = Cert.ReferenceIdeal.Read.val_main_v18 (F := Ideal) (m ((c : Thread nD τ).loc main_arg1)) := by
  unfold Wpre
  simp only [Gen.hostOps0, Gen.hostOps0_1, Gen.hostOps0_2, List.flatten_cons, List.flatten_nil,
    List.append_nil, List.cons_append, List.nil_append]
  after_results_simp
  rfl

end Cert.KernelIdeal.Voxel

end
-- ==== Proof.KernelHostB.lean ====
/-
  The host lines of the kernel program before the launch, second stretch: the launch's voxel-index operand.

  From the scaled coordinates the lines round, convert to integers, combine the three voxel coordinates into one index
  per point and view it [16, 1, 32768]: the reference's per-point index, over whatever the earlier lines left.
-/
import proofs.«170821_j87144886436561_2_alg».proof.Proof.Gen.KernelIdeal.Frame
import proofs.«170821_j87144886436561_2_alg».proof.Proof.Gen.ReferenceIdeal.Read
import Idealize.ShloMosaic.Lib.StableHlo.Run

set_option maxRecDepth 16384

noncomputable section

namespace Cert.KernelIdeal.Voxel

open Cert.KernelIdeal Cert.KernelIdeal.Gen
open Idealize.ShloMosaic Idealize.ShloMosaic.TcCoe Idealize.ShloMosaic.Tactic Idealize.ShloMosaic.StableHlo
open Idealize.SL Idealize.SL.Sem

set_option maxHeartbeats 4000000 in
/-- The second stretch's voxel-index operand, over any contents before it. -/
theorem after4_v45 (W : Valuation τ sig (Elt Ideal)) (x : S16x32768x3.Idx → EReal)
    (h : (W (Proc.devRef .tc main_v18) : S16x32768x3.Idx → EReal) = Cert.ReferenceIdeal.Read.val_main_v18 (F := Ideal) x) :
    (StableHlo.after (hostOps0_3 ++ hostOps0_4) W (Proc.devRef .tc main_v45) : S16x1x32768.Idx → BitVec 32)
      = broadcastInDim S16x1x32768 ![0, 2] bcast_S16x32768_S16x1x32768_0_2 (Cert.ReferenceIdeal.Read.val_main_v32 (F := Ideal) x) := by
  simp only [Gen.hostOps0_3, Gen.hostOps0_4, List.cons_append, List.nil_append]
  after_results_simp
  rw [h]
  rfl

end Cert.KernelIdeal.Voxel

end
-- ==== Proof.KernelHostC.lean ====
/-
  The host lines of the kernel program before the launch, second stretch: the per-voxel counts.

  From the scaled coordinates the lines round, form the flat index `32768 · batch + voxel index`, add a one per point
  into a table of zeros at it, and view the table [16, 32768]: the reference's counts, over whatever the earlier lines
  left.
-/
import proofs.«170821_j87144886436561_2_alg».proof.Proof.Gen.KernelIdeal.Frame
import proofs.«170821_j87144886436561_2_alg».proof.Proof.Gen.ReferenceIdeal.Read
import Idealize.ShloMosaic.Lib.StableHlo.Run

set_option maxRecDepth 16384

noncomputable section

namespace Cert.KernelIdeal.Voxel

open Cert.KernelIdeal Cert.KernelIdeal.Gen
open Idealize.ShloMosaic Idealize.ShloMosaic.TcCoe Idealize.ShloMosaic.Tactic Idealize.ShloMosaic.StableHlo
open Idealize.SL Idealize.SL.Sem

set_option maxHeartbeats 4000000 in
/-- The second stretch's per-voxel counts, over any contents before it. -/
theorem after4_v44 (W : Valuation τ sig (Elt Ideal)) (x : S16x32768x3.Idx → EReal)
    (h : (W (Proc.devRef .tc main_v18) : S16x32768x3.Idx → EReal) = Cert.ReferenceIdeal.Read.val_main_v18 (F := Ideal) x) :
    (StableHlo.after (hostOps0_3 ++ hostOps0_4) W (Proc.devRef .tc main_v44) : S16x32768.Idx → EReal)
      = shapeCast S16x32768 (Cert.ReferenceIdeal.Read.val_main_v48 (F := Ideal) x) shapeCasts_S524288_S16x32768 := by
  simp only [Gen.hostOps0_3, Gen.hostOps0_4, List.cons_append, List.nil_append]
  after_results_simp
  rw [h]
  rfl

end Cert.KernelIdeal.Voxel

end
-- ==== Proof.KernelHost.lean ====
/-
  The host lines of the kernel program before the launch, read back: the arrays the region finds.

  The kernel program normalizes the coordinates, rounds them to voxel numbers and counts the points per voxel with
  exactly the reference's operations, in the reference's order.  So the normalized coordinates, the voxel-index operand
  of the launch (the per-point index viewed [16, 1, 32768]) and the per-voxel counts (viewed [16, 32768]) are the
  reference's own stages of the coordinates argument.
-/
import proofs.«170821_j87144886436561_2_alg».proof.Proof.KernelHostA
import proofs.«170821_j87144886436561_2_alg».proof.Proof.KernelHostB
import proofs.«170821_j87144886436561_2_alg».proof.Proof.KernelHostC

set_option maxRecDepth 16384

noncomputable section

namespace Cert.KernelIdeal.Voxel

open Cert.KernelIdeal Cert.KernelIdeal.Gen
open Idealize.ShloMosaic Idealize.ShloMosaic.TcCoe Idealize.ShloMosaic.Tactic Idealize.ShloMosaic.StableHlo
open Idealize.SL Idealize.SL.Sem

variable (m : (ℓ : Loc nD τ sig) → Buf (Elt Ideal) ℓ)

/-- The normalized coordinates the region finds are the reference's: the second stretch does not write them. -/
theorem V_v16 (c : Dev nD) : (V m c main_v16 : S16x32768x3.Idx → EReal)
    = Cert.ReferenceIdeal.Read.val_main_v16 (F := Ideal) (m ((c : Thread nD τ).loc main_arg1)) := by
  show V0 m c (Proc.devRef .tc main_v16) = _
  rw [V0_split, StableHlo.after_of_forall_not_mem (b := Proc.devRef .tc main_v16) _ _ (List.forall_iff_forall_mem.mp (by
      simp only [hostOps0_3, hostOps0_4, List.cons_append, List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))]
  exact Wpre_v16 m c

/-- The launch's voxel-index operand is the reference's per-point index, viewed [16, 1, 32768]. -/
theorem V_v45 (c : Dev nD) : (V m c main_v45 : S16x1x32768.Idx → BitVec 32)
    = broadcastInDim S16x1x32768 ![0, 2] bcast_S16x32768_S16x1x32768_0_2
        (Cert.ReferenceIdeal.Read.val_main_v32 (F := Ideal) (m ((c : Thread nD τ).loc main_arg1))) := by
  show V0 m c (Proc.devRef .tc main_v45) = _
  rw [V0_split]
  exact after4_v45 (Wpre m c) _ (Wpre_v18 m c)

/-- The per-voxel counts the region finds are the reference's, viewed [16, 32768]. -/
theorem V_v44 (c : Dev nD) : (V m c main_v44 : S16x32768.Idx → EReal)
    = shapeCast S16x32768 (Cert.ReferenceIdeal.Read.val_main_v48 (F := Ideal) (m ((c : Thread nD τ).loc main_arg1)))
        shapeCasts_S524288_S16x32768 := by
  show V0 m c (Proc.devRef .tc main_v44) = _
  rw [V0_split]
  exact after4_v44 (Wpre m c) _ (Wpre_v18 m c)

end Cert.KernelIdeal.Voxel

end
-- ==== Proof.LibScatterAddRows.lean ====
/-
  THE HOST'S ACCUMULATING FLOAT SCATTER OF WHOLE ROWS, READ AT AN ELEMENT (ideal instance).

  An operand `x : [N, D]`, scatter indices `idx : [M, 1]` (integers, one start index per update row) and updates
  `upd : [M, D]`, under the dimension numbers update_window_dims = [1], inserted_window_dims = [0],
  scatter_dims_to_operand_dims = [0], index_vector_dim = 1: update row `m` is added, whole, to the operand row whose
  number is `idx[m, 0]` read as a SIGNED integer; a row whose start index is negative or at least `N` is dropped.
  At the ideal instance the colliding updates add exactly, so at every element `(p, q)`

      scatterAdd x idx upd (p, q) = x (p, q) + ∑ m : Fin M, if (idx (m, 0)).toInt = p then upd (m, q) else 0.

  The reason, axis by axis of `ScatterDims.resultIdx?`: on operand axis 0 the start is `idx[j₀, 0]` and the window
  coordinate is 0 (the axis is inserted); on operand axis 1 the start is 0 (the map does not name the axis) and the
  window coordinate is `j₁ < D`. So update element `(j₀, j₁)` lands at `(p, q)` exactly when
  `(idx (j₀, 0)).toInt = p` and `j₁ = q` (`resultIdx?_eq_some_iff`), the in-range condition on axis 0 following from
  `p < N` and the one on axis 1 always holding. Summing the updates over that set and splitting the rank-2 sum into
  its two coordinates leaves the sum over `m` alone. Nothing here enumerates an index set: `N`, `M`, `D` are arbitrary.

  Statements (all at `F := Ideal`):
    • `rowDims N M D wf`              the dimension numbers above as a record, their conditions `wf` a hypothesis;
    • `resultIdx?_eq_some_iff`        where an update element lands;
    • `rowDims_scatterAdd_apply`      the displayed equation for `rowDims`;
    • `scatterAdd_rows_apply`         the same for ANY record `d` whose four fields are those lists (four equations,
                                      each `rfl` for a record written with the literal fields);
    • `scatterAdd_rows_apply_idx`     the same at an arbitrary index `i` (coordinates `i 0`, `i 1`);
    • `scatterAdd_rows_apply_filter`  the same with the sum over the rows `m` whose start index is `p`.
-/
import Idealize.ShloMosaic.Lib.ValueIdx
import Idealize.ShloMosaic.PureOps.Contract

noncomputable section

open scoped BigOperators

namespace Idealize.ShloMosaic.ScatterAddRows

open Idealize.ShloMosaic Idealize.ShloMosaic.ValueIdx

/-- The dimension numbers of a scatter of whole rows: operand `[N, D]`, scatter indices `[M, 1]`, updates `[M, D]`;
    the updates' axis 1 is the window axis, the operand's axis 0 is inserted and is the one the start index names,
    the index vector lies along the scatter indices' axis 1. -/
abbrev rowDims (N M D : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

section Literal

variable {N M D w : Nat} (wf : ScatterDims.WF ⟨2, ![N, D]⟩ ⟨2, ![M, 1]⟩ ⟨2, ![M, D]⟩ [1] [0] [0] 1)

/-- On operand axis 0 the window of update element `j` starts at `idx[j₀, 0]`, read signed. -/
theorem start0 (j : (⟨2, ![M, D]⟩ : Shape).Idx) (idx : IVec ⟨2, ![M, 1]⟩ w) :
    (rowDims N M D wf).start j idx 0 = (idx (ix2 (j 0) 0)).toInt := by
  unfold ScatterDims.start
  rw [dif_pos (show (0 : Fin 2) ∈ (rowDims N M D wf).scatterDimsToOperandDims from List.mem_singleton.mpr rfl)]
  congr 2
  funext b
  refine Fin.ext ?_
  match b with
  | ⟨0, _⟩ => rfl
  | ⟨1, _⟩ => rfl

/-- On operand axis 1, which the start-index map does not name, the window starts at 0. -/
theorem start1 (j : (⟨2, ![M, D]⟩ : Shape).Idx) (idx : IVec ⟨2, ![M, 1]⟩ w) :
    (rowDims N M D wf).start j idx 1 = 0 := by
  unfold ScatterDims.start
  rw [dif_neg (by show (1 : Fin 2) ∉ [(0 : Fin 2)]; decide)]

/-- Operand axis 0 is inserted: the window coordinate on it is 0. -/
theorem window0 (j : (⟨2, ![M, D]⟩ : Shape).Idx) :
    (rowDims N M D wf).window j 0 = 0 := by
  unfold ScatterDims.window
  rw [dif_neg (by show (0 : Fin 2) ∉ (List.finRange 2).filter (· ∉ [(0 : Fin 2)]); decide)]

/-- Operand axis 1 is the one kept axis: the window coordinate on it is the update's coordinate on its window axis. -/
theorem window1 (j : (⟨2, ![M, D]⟩ : Shape).Idx) :
    (rowDims N M D wf).window j 1 = (j 1).val := by
  unfold ScatterDims.window
  rw [dif_pos (by show (1 : Fin 2) ∈ (List.finRange 2).filter (· ∉ [(0 : Fin 2)]); decide)]
  rfl

/-- WHERE AN UPDATE ELEMENT LANDS: update element `j = (j₀, j₁)` lands at operand element `(p, q)` exactly when its
    row's start index, read signed, is `p`, and `j₁ = q`. (A start index outside `[0, N)` lands nowhere, and is
    no `p`.) -/
theorem resultIdx?_eq_some_iff (j : (⟨2, ![M, D]⟩ : Shape).Idx) (idx : IVec ⟨2, ![M, 1]⟩ w) (p : Fin N) (q : Fin D) :
    (rowDims N M D wf).resultIdx? j idx = some (ix2 p q) ↔
      (idx (ix2 (j 0) 0)).toInt = (p.val : ℤ) ∧ j 1 = q := by
  have hp : p.val < N := p.isLt
  have hj1 : (j 1).val < D := idx2_lt1 j
  unfold ScatterDims.resultIdx?
  split_ifs with h
  · rw [Option.some.injEq]
    have h0' : 0 ≤ (rowDims N M D wf).start j idx 0 + ((rowDims N M D wf).window j 0 : ℤ) ∧
        (rowDims N M D wf).start j idx 0 + ((rowDims N M D wf).window j 0 : ℤ) < (N : ℤ) := h 0
    rw [start0, window0] at h0'
    constructor
    · intro he
      have h0 : ((rowDims N M D wf).start j idx 0 + ((rowDims N M D wf).window j 0 : ℤ)).toNat = p.val :=
        congrArg (fun f => (f 0).val) he
      have h1 : ((rowDims N M D wf).start j idx 1 + ((rowDims N M D wf).window j 1 : ℤ)).toNat = q.val :=
        congrArg (fun f => (f 1).val) he
      rw [start0, window0] at h0
      rw [start1, window1] at h1
      refine ⟨?_, Fin.ext ?_⟩
      · omega
      · omega
    · rintro ⟨h0, h1⟩
      funext a
      refine Fin.ext ?_
      match a with
      | ⟨0, _⟩ =>
        show ((rowDims N M D wf).start j idx 0 + ((rowDims N M D wf).window j 0 : ℤ)).toNat = p.val
        rw [start0, window0, h0]; omega
      | ⟨1, _⟩ =>
        show ((rowDims N M D wf).start j idx 1 + ((rowDims N M D wf).window j 1 : ℤ)).toNat = q.val
        rw [start1, window1, ← h1]; omega
  · constructor
    · intro he; cases he
    · rintro ⟨h0, h1⟩
      exfalso
      apply h
      intro a
      match a with
      | ⟨0, _⟩ =>
        show 0 ≤ (rowDims N M D wf).start j idx 0 + ((rowDims N M D wf).window j 0 : ℤ) ∧
          (rowDims N M D wf).start j idx 0 + ((rowDims N M D wf).window j 0 : ℤ) < (N : ℤ)
        rw [start0, window0, h0]; omega
      | ⟨1, _⟩ =>
        show 0 ≤ (rowDims N M D wf).start j idx 1 + ((rowDims N M D wf).window j 1 : ℤ) ∧
          (rowDims N M D wf).start j idx 1 + ((rowDims N M D wf).window j 1 : ℤ) < (D : ℤ)
        rw [start1, window1]; omega

/-- THE SCATTER OF ROWS READ AT `(p, q)`, for the record `rowDims`: the operand's element plus the sum, over the
    update rows `m` whose start index (read signed) is `p`, of the update's element `(m, q)`. -/
theorem rowDims_scatterAdd_apply {φ : FTy} (x : FVec Ideal ⟨2, ![N, D]⟩ φ) (idx : IVec ⟨2, ![M, 1]⟩ w)
    (upd : FVec Ideal ⟨2, ![M, D]⟩ φ) (p : Fin N) (q : Fin D) :
    Host.scatterAdd (F := Ideal) (rowDims N M D wf) x idx upd (ix2 p q)
      = x (ix2 p q) + ∑ m : Fin M, if (idx (ix2 m 0)).toInt = (p.val : ℤ) then upd (ix2 m q) else 0 := by
  unfold Host.scatterAdd
  rw [Ideal.hostScatterAdd_def]
  unfold Ideal.hostScatterAdd
  congr 1
  rw [Finset.sum_filter, sum_idx2]
  refine Finset.sum_congr rfl fun m _ => ?_
  have key : ∀ b : Fin D, ((rowDims N M D wf).resultIdx? (ix2 m b) idx = some (ix2 p q)) ↔
      ((idx (ix2 m 0)).toInt = (p.val : ℤ) ∧ b = q) := fun b => resultIdx?_eq_some_iff wf (ix2 m b) idx p q
  refine (Finset.sum_congr rfl fun b _ => if_congr (key b) rfl rfl).trans ?_
  by_cases hm : (idx (ix2 m 0)).toInt = (p.val : ℤ)
  · rw [if_pos hm]; simp [hm]
  · rw [if_neg hm]; simp [hm]

end Literal

variable {N M D w : Nat} {φ : FTy}

/-- THE SCATTER OF ROWS READ AT `(p, q)`, for any dimension-number record with the four lists of a scatter of whole
    rows (each hypothesis is `rfl` for a record written with those literal fields, whatever proves its `wf`). -/
theorem scatterAdd_rows_apply (d : ScatterDims ⟨2, ![N, D]⟩ ⟨2, ![M, 1]⟩ ⟨2, ![M, D]⟩)
    (huw : d.updateWindowDims = [1]) (hiw : d.insertedWindowDims = [0])
    (hsd : d.scatterDimsToOperandDims = [0]) (hiv : d.indexVectorDim = 1)
    (x : FVec Ideal ⟨2, ![N, D]⟩ φ) (idx : IVec ⟨2, ![M, 1]⟩ w) (upd : FVec Ideal ⟨2, ![M, D]⟩ φ)
    (p : Fin N) (q : Fin D) :
    Host.scatterAdd (F := Ideal) d x idx upd (ix2 p q)
      = x (ix2 p q) + ∑ m : Fin M, if (idx (ix2 m 0)).toInt = (p.val : ℤ) then upd (ix2 m q) else 0 := by
  obtain ⟨uw, iw, sd, iv, wf⟩ := d
  dsimp only at huw hiw hsd hiv
  subst huw hiw hsd hiv
  exact rowDims_scatterAdd_apply wf x idx upd p q

/-- The same at an arbitrary operand index `i`, by its coordinates. -/
theorem scatterAdd_rows_apply_idx (d : ScatterDims ⟨2, ![N, D]⟩ ⟨2, ![M, 1]⟩ ⟨2, ![M, D]⟩)
    (huw : d.updateWindowDims = [1]) (hiw : d.insertedWindowDims = [0])
    (hsd : d.scatterDimsToOperandDims = [0]) (hiv : d.indexVectorDim = 1)
    (x : FVec Ideal ⟨2, ![N, D]⟩ φ) (idx : IVec ⟨2, ![M, 1]⟩ w) (upd : FVec Ideal ⟨2, ![M, D]⟩ φ)
    (i : (⟨2, ![N, D]⟩ : Shape).Idx) :
    Host.scatterAdd (F := Ideal) d x idx upd i
      = x i + ∑ m : Fin M, if (idx (ix2 m 0)).toInt = (((i 0).val : ℕ) : ℤ) then upd (ix2 m (i 1)) else 0 := by
  obtain ⟨p, q, rfl⟩ : ∃ (p : Fin N) (q : Fin D), i = ix2 p q := ⟨i 0, i 1, eq_ix2 i⟩
  exact scatterAdd_rows_apply d huw hiw hsd hiv x idx upd p q

/-- The same with the sum taken over the update rows whose start index is `p`. -/
theorem scatterAdd_rows_apply_filter (d : ScatterDims ⟨2, ![N, D]⟩ ⟨2, ![M, 1]⟩ ⟨2, ![M, D]⟩)
    (huw : d.updateWindowDims = [1]) (hiw : d.insertedWindowDims = [0])
    (hsd : d.scatterDimsToOperandDims = [0]) (hiv : d.indexVectorDim = 1)
    (x : FVec Ideal ⟨2, ![N, D]⟩ φ) (idx : IVec ⟨2, ![M, 1]⟩ w) (upd : FVec Ideal ⟨2, ![M, D]⟩ φ)
    (p : Fin N) (q : Fin D) :
    Host.scatterAdd (F := Ideal) d x idx upd (ix2 p q)
      = x (ix2 p q) + ∑ m ∈ Finset.univ.filter (fun m : Fin M => (idx (ix2 m 0)).toInt = (p.val : ℤ)), upd (ix2 m q) := by
  rw [scatterAdd_rows_apply d huw hiw hsd hiv, Finset.sum_filter]

end Idealize.ShloMosaic.ScatterAddRows

end
-- ==== Proof.RefSums.lean ====
/-
  THE REFERENCE'S TABLE OF SUMS, READ AT AN ELEMENT (ideal instance).

  The reference flattens the features `x0 : [16, 32768, 64]` to rows `[524288, 64]` (flat row `b' * 32768 + n` is
  point `n` of batch `b'`), scatter-adds row `m` into a zero table `[524288, 64]` at the row whose number is the
  32-bit word `voxel (b', n) + b' * 32768`, and reshapes the table back to `[16, 32768, 64]`. Here `voxel` is the
  stage `val_main_v32` of the generated reading of the program (the per-point voxel number, a 32-bit word).

  If every voxel number is a natural number below 32768 (`hrange`), then the word `voxel + b' * 32768` does not wrap,
  its signed reading is `b' * 32768 + k` with `k < 32768`, and by uniqueness of quotient and remainder it equals
  `b * 32768 + r` exactly when `b' = b` and `k = r`: a point never lands in another batch's rows. Hence

      table (b, r, ch) = ∑ n : Fin 32768, x0 (b, n, ch) * (if voxel (b, n) = r then 1 else 0)       (`ref_sums`).

  Steps: the reshapes' index maps at a flat row (`idx44`, `idx40`, `idx39`); the scatter read at a row (the general
  lemma for a scatter of whole rows); the sum over the 524288 flat rows split into batches and points (`sum_flat`);
  the word arithmetic (`word_toInt`, `ofNat_inj`, `lands_iff`); the batches other than `b` contribute zero.
  No index set is enumerated.
-/
import proofs.«170821_j87144886436561_2_alg».proof.Proof.Gen.ReferenceIdeal.Read
import proofs.«170821_j87144886436561_2_alg».proof.Proof.LibScatterAddRows

noncomputable section

open scoped BigOperators

namespace Cert.RefSums

open Cert.ReferenceIdeal Cert.ReferenceIdeal.Read Idealize.ShloMosaic Idealize.ShloMosaic.ValueIdx
  Idealize.ShloMosaic.ScatterAddRows

/-! ## The flat row number `b * 32768 + n` -/

/-- Row `b * 32768 + n` of the flattened `[524288, ·]` arrays: batch `b`, point `n`. -/
def flat (b : Fin 16) (n : Fin 32768) : Fin 524288 :=
  ⟨b.val * 32768 + n.val, by have := b.isLt; have := n.isLt; omega⟩

/-- Quotient and remainder by 32768: a flat row number is a (batch, point) pair. -/
def flatEquiv : Fin 16 × Fin 32768 ≃ Fin 524288 where
  toFun p := flat p.1 p.2
  invFun m := (⟨m.val / 32768, by have := m.isLt; omega⟩, ⟨m.val % 32768, by omega⟩)
  left_inv p := by
    obtain ⟨b, n⟩ := p
    have := b.isLt; have := n.isLt
    refine Prod.ext (Fin.ext ?_) (Fin.ext ?_)
    · show (b.val * 32768 + n.val) / 32768 = b.val; omega
    · show (b.val * 32768 + n.val) % 32768 = n.val; omega
  right_inv m := by
    refine Fin.ext ?_
    show m.val / 32768 * 32768 + m.val % 32768 = m.val; omega

/-- A sum over the flat rows is the double sum over batches and points. -/
theorem sum_flat {A : Type*} [AddCommMonoid A] (g : Fin 524288 → A) :
    ∑ m, g m = ∑ b : Fin 16, ∑ n : Fin 32768, g (flat b n) := by
  rw [← Equiv.sum_comp flatEquiv g, Fintype.sum_prod_type]
  rfl

/-! ## Word arithmetic -/

/-- A voxel number below 32768 plus `b' * 32768`, `b' < 16`, computed in 32-bit words, does not wrap, and read as a
    signed integer is the natural number `b' * 32768 + k` (below `2 ^ 19`). -/
theorem word_toInt (k b' : ℕ) (hk : k < 32768) (hb : b' < 16) :
    (BitVec.ofNat 32 k + BitVec.ofNat 32 b' * 32768#32).toInt = ((b' * 32768 + k : ℕ) : ℤ) := by
  have htn : (BitVec.ofNat 32 k + BitVec.ofNat 32 b' * 32768#32).toNat = b' * 32768 + k := by
    simp only [BitVec.toNat_add, BitVec.toNat_mul, BitVec.toNat_ofNat, Nat.reducePow, Nat.reduceMod]
    omega
  rw [BitVec.toInt_eq_toNat_cond, htn, if_pos (by omega)]

/-- Below `2 ^ 32` (here: below 32768) a natural number is determined by its 32-bit word. -/
theorem ofNat_inj {k r : ℕ} (hk : k < 32768) (hr : r < 32768) (h : BitVec.ofNat 32 k = BitVec.ofNat 32 r) : k = r := by
  have := congrArg BitVec.toNat h
  simp only [BitVec.toNat_ofNat, Nat.reducePow] at this
  omega

/-! ## The index maps of the reshapes, at a flat row -/

/-- The reshape of the table back to `[16, 32768, 64]` reads element `(b, r, ch)` at flat row `b * 32768 + r`. -/
theorem idx44 (b : Fin 16) (r : Fin 32768) (ch : Fin 64) :
    idx_main_v44 (ix3 b r ch) = ix2 (flat b r) ch := by
  funext a
  refine Fin.ext ?_
  have := b.isLt; have := r.isLt; have := ch.isLt
  match a with
  | ⟨0, _⟩ => show ((b.val * 32768 + r.val) * 64 + ch.val) / 64 = b.val * 32768 + r.val; omega
  | ⟨1, _⟩ => show ((b.val * 32768 + r.val) * 64 + ch.val) % 64 = ch.val; omega

/-- The reshape of the features to rows reads flat row `b' * 32768 + n`, column `ch`, at `(b', n, ch)`. -/
theorem idx40 (b' : Fin 16) (n : Fin 32768) (ch : Fin 64) :
    idx_main_v40 (ix2 (flat b' n) ch) = ix3 b' n ch := by
  funext a
  refine Fin.ext ?_
  have := b'.isLt; have := n.isLt; have := ch.isLt
  match a with
  | ⟨0, _⟩ => show ((b'.val * 32768 + n.val) * 64 + ch.val) / 2097152 = b'.val; omega
  | ⟨1, _⟩ => show ((b'.val * 32768 + n.val) * 64 + ch.val) / 64 % 32768 = n.val; omega
  | ⟨2, _⟩ => show ((b'.val * 32768 + n.val) * 64 + ch.val) % 64 = ch.val; omega

/-- The scatter indices, a column view of the flattened `[16, 32768]` index words, read flat row `b' * 32768 + n` at `(b', n)`. -/
theorem idx39 (b' : Fin 16) (n : Fin 32768) :
    idx_main_v39 (idx_main_v42 (ix2 (flat b' n) 0)) = ix2 b' n := by
  funext a
  refine Fin.ext ?_
  have := b'.isLt; have := n.isLt
  match a with
  | ⟨0, _⟩ => show (b'.val * 32768 + n.val) / 32768 = b'.val; omega
  | ⟨1, _⟩ => show (b'.val * 32768 + n.val) % 32768 = n.val; omega

/-! ## The operands of the scatter, at a flat row -/

/-- The batch offset: `b' * 32768` as a 32-bit word, at every point of batch `b'`. -/
theorem v37_at (b' : Fin 16) (n : Fin 32768) :
    val_main_v37 (F := Ideal) (ix2 b' n) = BitVec.ofNat 32 b'.val * 32768#32 := by
  rw [val_main_v37_apply, val_main_v36_apply, val_main_v34_apply, val_main_v33_apply, val_main_v35_apply,
    val_main_c_7_apply]
  rfl

/-- The scatter index of flat row `b' * 32768 + n`: the voxel number of point `(b', n)` plus the batch offset. -/
theorem word_at (x1 : (⟨S16x32768x3, .f32⟩ : BufTy).Contents (Elt Ideal)) (b' : Fin 16) (n : Fin 32768) :
    val_main_v42 (F := Ideal) x1 (ix2 (flat b' n) 0)
      = val_main_v32 (F := Ideal) x1 (ix2 b' n) + BitVec.ofNat 32 b'.val * 32768#32 := by
  rw [val_main_v42_apply, val_main_v39_apply, idx39, val_main_v38_apply, v37_at]
  rfl

/-- The update row of flat row `b' * 32768 + n` is the feature row of point `(b', n)`. -/
theorem v40_at (x0 : (⟨S16x32768x64, .f32⟩ : BufTy).Contents (Elt Ideal)) (b' : Fin 16) (n : Fin 32768) (ch : Fin 64) :
    val_main_v40 (F := Ideal) x0 (ix2 (flat b' n) ch) = x0 (ix3 b' n ch) := by
  rw [val_main_v40_apply, idx40]

/-- The operand of the scatter is zero. -/
theorem v41_at (i : S524288x64.Idx) : val_main_v41 (F := Ideal) i = 0 := by
  rw [val_main_v41_apply, val_main_cst_8_apply]
  exact Ideal.ofBits_zero_f32

/-- WHEN A ROW LANDS: with every voxel number below 32768, flat row `b' * 32768 + n` is scattered to table row
    `b * 32768 + r` exactly when it is of the same batch and its voxel number is `r` (uniqueness of quotient and
    remainder by 32768). -/
theorem lands_iff (x1 : (⟨S16x32768x3, .f32⟩ : BufTy).Contents (Elt Ideal))
    (hrange : ∀ i : S16x32768.Idx, ∃ k : ℕ, k < 32768 ∧ val_main_v32 (F := Ideal) x1 i = BitVec.ofNat 32 k)
    (b b' : Fin 16) (r n : Fin 32768) :
    (val_main_v42 (F := Ideal) x1 (ix2 (flat b' n) 0)).toInt = (((flat b r).val : ℕ) : ℤ) ↔
      b' = b ∧ val_main_v32 (F := Ideal) x1 (ix2 b' n) = BitVec.ofNat 32 r.val := by
  obtain ⟨k, hk, hv⟩ := hrange (ix2 b' n)
  have hb := b.isLt; have hb' := b'.isLt; have hr := r.isLt
  rw [word_at, hv, word_toInt k b'.val hk hb']
  show ((b'.val * 32768 + k : ℕ) : ℤ) = ((b.val * 32768 + r.val : ℕ) : ℤ) ↔ _
  constructor
  · intro h
    have h' : b'.val * 32768 + k = b.val * 32768 + r.val := by exact_mod_cast h
    have hbb : b'.val = b.val := by omega
    have hkr : k = r.val := by omega
    exact ⟨Fin.ext hbb, by rw [hkr]⟩
  · rintro ⟨rfl, h⟩
    have hkr : k = r.val := ofNat_inj hk hr h
    rw [hkr]

/-! ## The reference's table of sums -/

/-- THE TABLE AT `(b, r, ch)`: the sum of the features `x0 (b, n, ch)` over the points `n` of batch `b` whose voxel
    number is `r`, given that every voxel number is below 32768. -/
theorem ref_sums (x0 : (⟨S16x32768x64, .f32⟩ : BufTy).Contents (Elt Ideal)) (x1 : (⟨S16x32768x3, .f32⟩ : BufTy).Contents (Elt Ideal))
    (hrange : ∀ i : S16x32768.Idx, ∃ k : ℕ, k < 32768 ∧ Cert.ReferenceIdeal.Read.val_main_v32 (F := Ideal) x1 i = BitVec.ofNat 32 k)
    (b : Fin 16) (r : Fin 32768) (ch : Fin 64) :
    Cert.ReferenceIdeal.Read.val_main_v44 (F := Ideal) x0 x1 (ix3 b r ch)
      = ∑ n : Fin 32768, x0 (ix3 b n ch) * (if Cert.ReferenceIdeal.Read.val_main_v32 (F := Ideal) x1 (ix2 b n) = BitVec.ofNat 32 r.val then (1 : EReal) else 0) := by
  rw [val_main_v44_apply, idx44]
  unfold val_main_v43
  rw [scatterAdd_rows_apply _ rfl rfl rfl rfl, v41_at, zero_add, sum_flat]
  have step : ∀ (b' : Fin 16) (n : Fin 32768),
      (if (val_main_v42 (F := Ideal) x1 (ix2 (flat b' n) 0)).toInt = (((flat b r).val : ℕ) : ℤ)
        then val_main_v40 (F := Ideal) x0 (ix2 (flat b' n) ch) else 0)
      = if b' = b ∧ val_main_v32 (F := Ideal) x1 (ix2 b' n) = BitVec.ofNat 32 r.val then x0 (ix3 b' n ch) else 0 :=
    fun b' n => if_congr (lands_iff x1 hrange b b' r n) (v40_at x0 b' n ch) rfl
  simp only [step]
  rw [Finset.sum_eq_single b]
  · refine Finset.sum_congr rfl fun n _ => ?_
    by_cases hc : val_main_v32 (F := Ideal) x1 (ix2 b n) = BitVec.ofNat 32 r.val
    · rw [if_pos ⟨rfl, hc⟩, if_pos hc, mul_one]
    · rw [if_neg (fun h => hc h.2), if_neg hc, mul_zero]
  · intro b' _ hne
    exact Finset.sum_eq_zero fun n _ => if_neg (fun h => hne h.1)
  · intro h; exact absurd (Finset.mem_univ b) h

end Cert.RefSums

end
-- ==== Proof.VoxelRangeMath.lean ====
/- The arithmetic behind the voxel index range, free of any program text: the float literals of the
   normalization as extended reals; finite sums and running maxima of reals computed in the extended reals;
   the Euclidean norm bounding each coordinate; a centered coordinate divided by twice the radius plus a
   positive slack, shifted by one half and scaled by 31, rounds to an integer 0 … 31 whose 32-bit word is that
   integer's; and three such words combine, in 32-bit arithmetic, to the word of a number below 32768. -/
import Idealize.ShloMosaic.PureOps.Ideal

noncomputable section

namespace Cert.VoxelRangeMath

open Idealize.ShloMosaic
open scoped BigOperators

/-! ## The float literals of the normalization, as extended reals -/

/-- The pattern of +0.0 denotes 0. -/
theorem ofBits_zero : Ideal.ofBits .f32 0x00000000#32 = 0 := by
  simp [Ideal.ofBits, Ideal.ieee]

/-- The pattern of 32768.0 (the number of points of a batch) denotes the real 32768. -/
theorem ofBits_32768 : Ideal.ofBits .f32 0x47000000#32 = ((32768 : ℝ) : EReal) := by
  simp [Ideal.ofBits, Ideal.ieee, -EReal.coe_mul]; norm_num

/-- The pattern of −∞, the maximum's initial value, denotes ⊥. -/
theorem ofBits_negInf : Ideal.ofBits .f32 0xFF800000#32 = ⊥ := by
  simp [Ideal.ofBits, Ideal.ieee]

/-- The pattern of 2.0 denotes the real 2. -/
theorem ofBits_two : Ideal.ofBits .f32 0x40000000#32 = ((2 : ℝ) : EReal) := by
  simp [Ideal.ofBits, Ideal.ieee, -EReal.coe_mul]; norm_num

/-- The pattern of 0.5 denotes the real 1/2. -/
theorem ofBits_half : Ideal.ofBits .f32 0x3F000000#32 = ((1 / 2 : ℝ) : EReal) := by
  simp [Ideal.ofBits, Ideal.ieee, -EReal.coe_mul]; norm_num

/-- The pattern of 31.0 (the grid resolution minus one) denotes the real 31. -/
theorem ofBits_31 : Ideal.ofBits .f32 0x41F80000#32 = ((31 : ℝ) : EReal) := by
  simp [Ideal.ofBits, Ideal.ieee, -EReal.coe_mul]; norm_num

/-- The slack added to the denominator (the f32 nearest 1e-6) denotes a positive real. -/
theorem ofBits_eps : ∃ e : ℝ, 0 < e ∧ Ideal.ofBits .f32 0x358637BD#32 = (e : EReal) := by
  simp [Ideal.ofBits, Ideal.ieee, -EReal.coe_mul]

/-! ## Sums and maxima of finite reals -/

/-- A finite sum of reals, computed in the extended reals, is the real sum. -/
theorem coe_sum {ι : Type*} (s : Finset ι) (f : ι → ℝ) :
    ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The running maximum from −∞ over a nonempty finite family of reals is a real that
    bounds every member of the family. -/
theorem fold_max_real {ι : Type*} (s : Finset ι) (hs : s.Nonempty) (g : ι → ℝ) :
    ∃ M : ℝ, s.fold max (⊥ : EReal) (fun k => (g k : EReal)) = (M : EReal) ∧ ∀ k ∈ s, g k ≤ M := by
  have hne_top : s.fold max (⊥ : EReal) (fun k => (g k : EReal)) ≠ ⊤ := by
    refine ne_of_lt ?_
    rw [Finset.fold_max_lt]
    exact ⟨bot_lt_top, fun k _ => EReal.coe_lt_top _⟩
  have hne_bot : s.fold max (⊥ : EReal) (fun k => (g k : EReal)) ≠ ⊥ := by
    refine ne_of_gt ?_
    rw [Finset.lt_fold_max]
    obtain ⟨k, hk⟩ := hs
    exact Or.inr ⟨k, hk, EReal.bot_lt_coe _⟩
  refine ⟨(s.fold max (⊥ : EReal) (fun k => (g k : EReal))).toReal, (EReal.coe_toReal hne_top hne_bot).symm, ?_⟩
  intro k hk
  have h : ((g k : ℝ) : EReal) ≤ s.fold max (⊥ : EReal) (fun k => (g k : EReal)) :=
    (Finset.le_fold_max _).2 (Or.inr ⟨k, hk, le_refl _⟩)
  rw [← EReal.coe_toReal hne_top hne_bot] at h
  exact_mod_cast h

/-! ## The norm bounds each coordinate -/

/-- Each term of a finite family is bounded, in absolute value, by the square root of the sum of squares. -/
theorem abs_le_sqrt_sum {ι : Type*} [Fintype ι] (g : ι → ℝ) (k0 : ι) :
    |g k0| ≤ Real.sqrt (∑ k, g k * g k) := by
  refine Real.abs_le_sqrt ?_
  rw [pow_two]
  exact Finset.single_le_sum (f := fun k => g k * g k) (fun k _ => mul_self_nonneg (g k)) (Finset.mem_univ k0)

/-- A sum of squares is not negative. -/
theorem sum_sq_nonneg {ι : Type*} [Fintype ι] (g : ι → ℝ) : 0 ≤ ∑ k, g k * g k :=
  Finset.sum_nonneg fun k _ => mul_self_nonneg (g k)

/-! ## Rounding and conversion -/

/-- Rounding half to even keeps a real of [0, 31] in the integers 0 … 31. -/
theorem roundHalfEven_range (t : ℝ) (h0 : 0 ≤ t) (h1 : t ≤ 31) :
    0 ≤ Ideal.roundHalfEven t ∧ Ideal.roundHalfEven t ≤ 31 := by
  have hf0 : (0 : ℤ) ≤ ⌊t⌋ := Int.floor_nonneg.2 h0
  have hfle : ((⌊t⌋ : ℤ) : ℝ) ≤ t := Int.floor_le t
  have hf31 : ⌊t⌋ ≤ 31 := by
    have : ((⌊t⌋ : ℤ) : ℝ) ≤ 31 := le_trans hfle h1
    exact_mod_cast this
  have hstep : ¬ (t - ⌊t⌋ < 1 / 2) → ⌊t⌋ + 1 ≤ 31 := by
    intro h
    by_contra hc
    have h31 : (31 : ℤ) ≤ ⌊t⌋ := by omega
    have : (31 : ℝ) ≤ ((⌊t⌋ : ℤ) : ℝ) := by exact_mod_cast h31
    apply h; linarith
  unfold Ideal.roundHalfEven
  simp only
  split_ifs with h1' h2' h3'
  · exact ⟨hf0, hf31⟩
  · exact ⟨by omega, hstep h1'⟩
  · exact ⟨hf0, hf31⟩
  · exact ⟨by omega, hstep h1'⟩

/-- The conversion to a 32-bit signed word of an integer 0 … 31 is that integer's word. -/
theorem fptosi_small (n : ℤ) (h0 : 0 ≤ n) (h1 : n ≤ 31) :
    ∃ v : ℕ, v ≤ 31 ∧ Ideal.fptosi 32 (((n : ℝ) : EReal)) = BitVec.ofNat 32 v := by
  refine ⟨n.toNat, by omega, ?_⟩
  unfold Ideal.fptosi
  rw [Ideal.toIntClamped_coe]
  have hn : (0 : ℝ) ≤ (n : ℝ) := by exact_mod_cast h0
  rw [if_pos hn, Int.floor_intCast]
  have : max (-((2 ^ (32 - 1) : ℕ) : ℤ)) (min (((2 ^ (32 - 1) : ℕ) : ℤ) - 1) n) = (n.toNat : ℤ) := by
    rw [Int.toNat_of_nonneg h0]
    norm_num
    omega
  rw [this]
  exact BitVec.ofInt_natCast _ _

/-- The whole scalar step: a centered coordinate within the batch radius, divided by twice the radius plus a positive
    slack, shifted by one half, scaled by 31, rounded half to even and converted, is the word of a number 0 … 31. -/
theorem voxel_small (c M e : ℝ) (hc : |c| ≤ M) (he : 0 < e) :
    ∃ v : ℕ, v ≤ 31 ∧
      Ideal.fptosi 32 (Ideal.liftRound Ideal.roundHalfEven (((c / (M * 2 + e) + 1 / 2) * 31 : ℝ) : EReal))
        = BitVec.ofNat 32 v := by
  have hM : 0 ≤ M := le_trans (abs_nonneg c) hc
  have hd : 0 < M * 2 + e := by linarith
  have hq : |c / (M * 2 + e)| ≤ 1 / 2 := by
    rw [abs_div, abs_of_pos hd, div_le_iff₀ hd]
    linarith
  have hq' := abs_le.1 hq
  have ht0 : 0 ≤ (c / (M * 2 + e) + 1 / 2) * 31 := by nlinarith [hq'.1]
  have ht1 : (c / (M * 2 + e) + 1 / 2) * 31 ≤ 31 := by nlinarith [hq'.2]
  rw [Ideal.liftRound_coe]
  obtain ⟨h0, h1⟩ := roundHalfEven_range _ ht0 ht1
  exact fptosi_small _ h0 h1

/-! ## The index word -/

/-- Three numbers 0 … 31 combine, in 32-bit words, to the word of a number below 32768 = 32³. -/
theorem idx_word (a b c : ℕ) (ha : a ≤ 31) (hb : b ≤ 31) (hc : c ≤ 31) :
    ∃ k : ℕ, k < 32768 ∧
      (BitVec.ofNat 32 a * 1024#32 + BitVec.ofNat 32 b * 32#32) + BitVec.ofNat 32 c = BitVec.ofNat 32 k := by
  refine ⟨a * 1024 + b * 32 + c, by omega, ?_⟩
  apply BitVec.eq_of_toNat_eq
  simp only [BitVec.toNat_add, BitVec.toNat_mul, BitVec.toNat_ofNat]
  omega

end Cert.VoxelRangeMath

end
-- ==== Proof.VoxelRange.lean ====
/- The voxel index of every point lies in [0, 32768): the reference's host operations, read one stage at a time at
   an index, from finite coordinates to the 32-bit index word. Every stage is a real: the batch mean, the centered
   coordinate c, the norm of a point, the batch radius M (the maximum of the norms, a real that bounds each of them, so
   |c| ≤ M), the positive denominator M·2 + ε; the normalized coordinate lies in [0, 1], its multiple in [0, 31], the
   rounded value is an integer 0 … 31, and the three words combine to v₀·1024 + v₁·32 + v₂ < 32768. -/
import proofs.«170821_j87144886436561_2_alg».proof.Proof.Gen.ReferenceIdeal.Read
import proofs.«170821_j87144886436561_2_alg».proof.Proof.VoxelRangeMath
import Idealize.ShloMosaic.Lib.ValueIdx

noncomputable section

namespace Cert.VoxelRange

open Cert.ReferenceIdeal Cert.ReferenceIdeal.Gen Cert.ReferenceIdeal.Read Idealize.ShloMosaic Cert.VoxelRangeMath
open scoped BigOperators

/-- The coordinates argument's contents at the ideal values. -/
abbrev Coords : Type := (⟨S16x32768x3, .f32⟩ : BufTy).Contents (Elt Ideal)

/-! ## Mean and centered coordinate -/

/-- The batch mean of each coordinate (the sum over the 32768 points divided by 32768) is a real. -/
theorem mean_real (x1 : Coords) (f : S16x32768x3.Idx → ℝ) (hf : ∀ i, x1 i = (f i : EReal)) (j : S16x1x3.Idx) :
    ∃ m : ℝ, val_main_v3 (F := Ideal) x1 j = (m : EReal) := by
  rw [val_main_v3_apply, val_main_v1_apply, val_main_v0_apply, val_main_v2_apply, val_main_cst_0_apply, val_main_cst_apply]
  simp only [Ideal.hostDivf_def, Ideal.ofBits_def, hf]
  rw [ofBits_zero, ofBits_32768, coe_sum, Ideal.div_coe (by norm_num), zero_add, ← EReal.coe_mul]
  exact ⟨_, rfl⟩

/-- The centered coordinate (the coordinate minus its batch mean) is a real. -/
theorem center_real (x1 : Coords) (f : S16x32768x3.Idx → ℝ) (hf : ∀ i, x1 i = (f i : EReal)) (i : S16x32768x3.Idx) :
    ∃ c : ℝ, val_main_v5 (F := Ideal) x1 i = (c : EReal) := by
  obtain ⟨m, hm⟩ := mean_real x1 f hf (idx_main_v4 i)
  rw [val_main_v5_apply, val_main_v4_apply, hm, hf]
  simp only [Ideal.subf_def]
  exact ⟨f i - m, (EReal.coe_sub _ _).symm⟩

/-! ## Norm and batch radius -/

/-- The norm of a point: the square root of the sum of its three squared centered coordinates, a real. -/
theorem norm_real (x1 : Coords) (c : S16x32768x3.Idx → ℝ) (hc : ∀ i, val_main_v5 (F := Ideal) x1 i = (c i : EReal))
    (j : S16x32768x1.Idx) :
    val_main_v6 (F := Ideal) x1 j
      = ((Real.sqrt (∑ k : Fin 3, c (idx_main_call0_v1 (idx_main_call0_v2 j) k) * c (idx_main_call0_v1 (idx_main_call0_v2 j) k)) : ℝ) : EReal) := by
  rw [val_main_v6_apply, val_main_call0_v2_apply, val_main_call0_v1_apply, val_main_call0_cst_apply]
  simp only [val_main_call0_v0_apply, hc, Ideal.mulf_def, Ideal.ofBits_def, Ideal.hostUnary_sqrt_def]
  rw [ofBits_zero, zero_add]
  simp only [← EReal.coe_mul]
  rw [coe_sum, Ideal.sqrt_coe,
    if_neg (not_lt.2 (sum_sq_nonneg (fun k : Fin 3 => c (idx_main_call0_v1 (idx_main_call0_v2 j) k))))]

/-- The reduction over the points of a batch, as a shape fact naming the index with a point put back. -/
theorem hred : S16x32768x1.Reduces [1] S16x1 := by decide

/-- The batch radius: the maximum from −∞ of the norms of the batch's 32768 points is a real, and bounds each norm. -/
theorem radius_real (x1 : Coords) (n : S16x32768x1.Idx → ℝ) (hn : ∀ j, val_main_v6 (F := Ideal) x1 j = (n j : EReal))
    (b : S16x1.Idx) :
    ∃ M : ℝ, val_main_v7 (F := Ideal) x1 b = (M : EReal) ∧ ∀ k : Fin (S16x32768x1.size 1), n (hred.lift b k) ≤ M := by
  obtain ⟨M, hM, hle⟩ := fold_max_real (Finset.univ : Finset (Fin (S16x32768x1.size 1)))
    ⟨⟨0, by decide⟩, Finset.mem_univ _⟩ (fun k => n (hred.lift b k))
  refine ⟨M, ?_, fun k => hle k (Finset.mem_univ k)⟩
  have key := Host.reduce_eq_fold_single (α := Ideal .f32) (FloatOps.maximumf (F := Ideal) (φ := .f32))
    (val_main_v6 (F := Ideal) x1) (val_main_cst_1 (F := Ideal)) reducesTo_S16x32768x1_S16x1_d1 hred h_S_ b
  refine key.trans ?_
  rw [← hM]
  have hfun : (val_main_v6 (F := Ideal) x1 ∘ hred.lift b) = fun k => (n (hred.lift b k) : EReal) :=
    funext fun k => hn _
  rw [hfun]
  show Finset.fold max (Ideal.ofBits .f32 0xFF800000#32) _ _ = _
  rw [ofBits_negInf]

/-! ## One coordinate's voxel number -/

/-- Every centered coordinate is, in absolute value, at most its batch's radius; so the normalized, scaled, rounded and
    converted coordinate is the word of a number 0 … 31. -/
theorem voxel_word (x1 : Coords) (hfin : ∀ i, ∃ r : ℝ, x1 i = (r : EReal)) (i : S16x32768x3.Idx) :
    ∃ v : ℕ, v ≤ 31 ∧ val_main_v20 (F := Ideal) x1 i = BitVec.ofNat 32 v := by
  choose f hf using hfin
  choose c hc using center_real x1 f hf
  have hn := norm_real x1 c hc
  obtain ⟨M, hM, hle⟩ := radius_real x1 _ hn (idx_main_v8 (idx_main_v13 i))
  obtain ⟨e, he, hee⟩ := ofBits_eps
  -- the point's norm bounds the coordinate, the radius bounds the norm
  have hcM : |c i| ≤ M := by
    have h1 := hle ⟨(i 1).val, (i 1).isLt⟩
    have h2 := abs_le_sqrt_sum (fun k : Fin 3 => c (idx_main_call0_v1 (idx_main_call0_v2
      (hred.lift (idx_main_v8 (idx_main_v13 i)) ⟨(i 1).val, (i 1).isLt⟩)) k)) ⟨(i 2).val, (i 2).isLt⟩
    have hidx : idx_main_call0_v1 (idx_main_call0_v2
        (hred.lift (idx_main_v8 (idx_main_v13 i)) ⟨(i 1).val, (i 1).isLt⟩)) ⟨(i 2).val, (i 2).isLt⟩ = i := by
      funext a
      match a with
      | ⟨0, _⟩ => exact Fin.ext rfl
      | ⟨1, _⟩ => exact Fin.ext rfl
      | ⟨2, _⟩ => exact Fin.ext rfl
    simp only [hidx] at h2
    exact le_trans h2 h1
  have hM0 : 0 ≤ M := le_trans (abs_nonneg _) hcM
  have hd : M * 2 + e ≠ 0 := by
    have : 0 < M * 2 + e := by linarith
    exact ne_of_gt this
  obtain ⟨v, hv, hword⟩ := voxel_small (c i) M e hcM he
  refine ⟨v, hv, ?_⟩
  rw [val_main_v20_apply, val_main_v19_apply, val_main_v18_apply, val_main_v17_apply, val_main_cst_5_apply,
    val_main_v16_apply, val_main_v15_apply, val_main_cst_4_apply, val_main_v14_apply, val_main_v13_apply,
    val_main_v12_apply, val_main_v11_apply, val_main_cst_3_apply, val_main_v10_apply, val_main_v9_apply,
    val_main_cst_2_apply, val_main_v8_apply, hM, hc]
  simp only [Ideal.hostDivf_def, Ideal.ofBits_def, Ideal.addf_def, Ideal.mulf_def, Ideal.hostUnary_roundeven_def]
  rw [ofBits_31, ofBits_half, ofBits_two, hee]
  rw [← EReal.coe_mul, ← EReal.coe_add, Ideal.div_coe hd, ← EReal.coe_mul, ← EReal.coe_add, ← EReal.coe_mul,
    mul_one_div]
  exact hword

/-! ## The index word -/

/-- The voxel index of a point, v₀·1024 + v₁·32 + v₂ in 32-bit words, is the word of a number below 32768. -/
theorem idx_range (x1 : (⟨S16x32768x3, .f32⟩ : BufTy).Contents (Elt Ideal)) (hfin : ∀ i, ∃ r : ℝ, x1 i = (r : EReal))
    (i : S16x32768.Idx) :
    ∃ k : ℕ, k < 32768 ∧ Cert.ReferenceIdeal.Read.val_main_v32 (F := Ideal) x1 i = BitVec.ofNat 32 k := by
  obtain ⟨v0, h0, e0⟩ := voxel_word x1 hfin (idx_main_v21 (idx_main_v22 i))
  obtain ⟨v1, h1, e1⟩ := voxel_word x1 hfin (idx_main_v25 (idx_main_v26 i))
  obtain ⟨v2, h2, e2⟩ := voxel_word x1 hfin (idx_main_v30 (idx_main_v31 i))
  obtain ⟨k, hk, ek⟩ := idx_word v0 v1 v2 h0 h1 h2
  refine ⟨k, hk, ?_⟩
  rw [val_main_v32_apply, val_main_v29_apply, val_main_v24_apply, val_main_v28_apply, val_main_v22_apply,
    val_main_v21_apply, e0, val_main_v26_apply, val_main_v25_apply, e1, val_main_v31_apply, val_main_v30_apply, e2,
    val_main_v23_apply, val_main_c_apply, val_main_v27_apply, val_main_c_6_apply]
  exact ek

end Cert.VoxelRange

end
-- ==== Proof.OutRead.lean ====
/- The two programs' first results read at an index, down to the two tables they divide: the reference's through its
   stages (reshape, transpose, divide, broadcast, maximum with 1, reshape of the counts), the kernel's host tail as one
   term (reshape of the counts, maximum with 1, two broadcasts, divide, reshape); and the kernel's voxel-index operand,
   a row broadcast to a unit middle axis, read at an index. Both results at (batch, channel, voxel) are the sum table's
   entry divided by the larger of the count table's entry and 1. -/
import proofs.«170821_j87144886436561_2_alg».proof.Proof.Gen.ReferenceIdeal.Read
import proofs.«170821_j87144886436561_2_alg».proof.Proof.Gen.KernelIdeal
import Idealize.ShloMosaic.Lib.Pipeline.Value
import Idealize.ShloMosaic.Lib.ValueIdx
import Idealize.ShloMosaic.PureOps.Ideal.Laws

noncomputable section

namespace Cert.OutRead

open Idealize.ShloMosaic Idealize.ShloMosaic.ValueIdx

/-- The row of voxel n of batch b among the 16 · 32768 rows of the flat tables. -/
abbrev flat (b : Fin 16) (n : Fin 32768) : Fin 524288 :=
  ⟨b.val * 32768 + n.val, by have hb := b.isLt; have hn := n.isLt; omega⟩

/-- The batch of a grid index (its first coordinate once the three grid axes are merged into the voxel number). -/
abbrev batchOf (i : Cert.ReferenceIdeal.S16x64x32x32x32.Idx) : Fin 16 :=
  ⟨(Cert.ReferenceIdeal.Read.idx_main_v55 i 0).val, (Cert.ReferenceIdeal.Read.idx_main_v55 i 0).isLt⟩
/-- The channel of a grid index. -/
abbrev chanOf (i : Cert.ReferenceIdeal.S16x64x32x32x32.Idx) : Fin 64 :=
  ⟨(Cert.ReferenceIdeal.Read.idx_main_v55 i 1).val, (Cert.ReferenceIdeal.Read.idx_main_v55 i 1).isLt⟩
/-- The voxel number of a grid index: its three grid coordinates merged, (x · 32 + y) · 32 + z. -/
abbrev voxOf (i : Cert.ReferenceIdeal.S16x64x32x32x32.Idx) : Fin 32768 :=
  ⟨(Cert.ReferenceIdeal.Read.idx_main_v55 i 2).val, (Cert.ReferenceIdeal.Read.idx_main_v55 i 2).isLt⟩

/-- The merged index of a grid index is (batch, channel, voxel number). -/
theorem merged_eq (i : Cert.ReferenceIdeal.S16x64x32x32x32.Idx) :
    Cert.ReferenceIdeal.Read.idx_main_v55 i = ix3 (batchOf i) (chanOf i) (voxOf i) := by
  funext a
  match a with
  | ⟨0, _⟩ => rfl
  | ⟨1, _⟩ => rfl
  | ⟨2, _⟩ => rfl

/-! ## The reference's first result at an index -/

section Reference

open Cert.ReferenceIdeal Cert.ReferenceIdeal.Gen Cert.ReferenceIdeal.Read

/-- At (batch, channel, voxel) the reference's result is the scatter-added feature table at (batch, voxel, channel)
    divided by the larger of the count table's entry at the voxel's flat row and 1. -/
theorem reference_out_apply (x0 : (⟨S16x32768x64, .f32⟩ : BufTy).Contents (Elt Ideal))
    (x1 : (⟨S16x32768x3, .f32⟩ : BufTy).Contents (Elt Ideal)) (i : S16x64x32x32x32.Idx) :
    val_main_v55 (F := Ideal) x0 x1 i
      = Ideal.div (val_main_v44 (F := Ideal) x0 x1 (ix3 (batchOf i) (voxOf i) (chanOf i)))
          (max (val_main_v48 (F := Ideal) x1 (ix1 (flat (batchOf i) (voxOf i)))) (Ideal.ofBits .f32 0x3F800000#32)) := by
  have e1 : idx_main_v54 (idx_main_v55 i) = ix3 (batchOf i) (voxOf i) (chanOf i) := by
    funext a
    match a with
    | ⟨0, _⟩ => rfl
    | ⟨1, _⟩ => rfl
    | ⟨2, _⟩ => rfl
  have e2 : idx_main_v49 (idx_main_v52 (idx_main_v54 (idx_main_v55 i))) = ix1 (flat (batchOf i) (voxOf i)) := by
    funext a
    match a with
    | ⟨0, _⟩ =>
      refine Fin.ext ?_
      show ((idx_main_v55 i 0).val * 32768 + (idx_main_v55 i 2).val) * 1 + 0
        = (idx_main_v55 i 0).val * 32768 + (idx_main_v55 i 2).val
      omega
  rw [val_main_v55_apply, val_main_v54_apply, val_main_v53_apply, val_main_v52_apply, val_main_v51_apply,
    val_main_v50_apply, val_main_cst_11_apply, val_main_v49_apply, e2, e1]
  rfl

end Reference

/-! ## The kernel's host tail and its voxel-index operand -/

section Kernel

open Cert.KernelIdeal Cert.KernelIdeal.Gen

/-- A [16, 32768] array broadcast to [16, 1, 32768] along a unit middle axis reads, at (b, u, n), the array at (b, n). -/
theorem bcast_row_apply {α : Type} (X : S16x32768.Idx → α) (b : Fin 16) (u : Fin 1) (n : Fin 32768) :
    broadcastInDim S16x1x32768 ![0, 2] bcast_S16x32768_S16x1x32768_0_2 X (ix3 b u n) = X (ix2 b n) :=
  broadcastInDim_apply _ bcast_S16x32768_S16x1x32768_0_2 X (ix3 b u n) (ix2 b n) (fun a => match a with
    | ⟨0, _⟩ => by show b.val = if (16 : Nat) = 1 then 0 else b.val; rw [if_neg (by decide)]
    | ⟨1, _⟩ => by show n.val = if (32768 : Nat) = 1 then 0 else n.val; rw [if_neg (by decide)])

/-- The kernel's voxel-index operand: the per-point index words, broadcast to [16, 1, 32768], at (b, u, n) are the
    words at (b, n). -/
theorem idx_operand_apply (X : (⟨S16x32768, .i32⟩ : BufTy).Contents (Elt Ideal)) (b : Fin 16) (u : Fin 1)
    (n : Fin 32768) :
    broadcastInDim S16x1x32768 ![0, 2] bcast_S16x32768_S16x1x32768_0_2 X (ix3 b u n) = X (ix2 b n) :=
  bcast_row_apply X b u n

/-- The kernel's host operations after its array result, as one term of that array and of the count table: the counts
    reshaped to [16, 32768], their maximum with 1, broadcast over the channels, the array divided by it, reshaped to the
    grid. -/
def tail (ARR : (⟨S16x64x32768, .f32⟩ : BufTy).Contents (Elt Ideal)) (CNT : (⟨S524288, .f32⟩ : BufTy).Contents (Elt Ideal)) :
    (⟨S16x64x32x32x32, .f32⟩ : BufTy).Contents (Elt Ideal) :=
  shapeCast _ (Host.divf ARR (broadcastInDim S16x64x32768 ![0, 1, 2] bcast_S16x1x32768_S16x64x32768_0_1_2 (broadcastInDim S16x1x32768 ![0, 2] bcast_S16x32768_S16x1x32768_0_2 (maximumf (shapeCast _ CNT shapeCasts_S524288_S16x32768) (broadcastInDim S16x32768 ![] bcast_S_S16x32768 (constant (F := Ideal) S_ .f32 0x3F800000#32)))))) shapeCasts_S16x64x32768_S16x64x32x32x32

/-- The counts reshaped to [16, 32768], at (b, n), are the count table at the flat row. -/
theorem counts_apply (CNT : (⟨S524288, .f32⟩ : BufTy).Contents (Elt Ideal)) (b : Fin 16) (n : Fin 32768) :
    shapeCast S16x32768 CNT shapeCasts_S524288_S16x32768 (ix2 b n) = CNT (ix1 (flat b n)) :=
  shapeCast_apply CNT shapeCasts_S524288_S16x32768 (ix2 b n) (ix1 (flat b n))
    (by rewrite [Shape.rowMajor_val_one, Shape.rowMajor_val_two]; rfl)

/-- The literal 1.0 broadcast to [16, 32768] reads the literal everywhere. -/
theorem one_apply (j : S16x32768.Idx) :
    broadcastInDim S16x32768 ![] bcast_S_S16x32768 (constant (F := Ideal) S_ .f32 0x3F800000#32) j
      = Ideal.ofBits .f32 0x3F800000#32 :=
  broadcastInDim_apply _ bcast_S_S16x32768 (constant (F := Ideal) S_ .f32 0x3F800000#32) j (fun a => a.elim0)
    (fun a => a.elim0)

/-- The divisor of the kernel's tail at (b, c, n): the larger of the count at the flat row of (b, n) and 1. -/
theorem divisor_apply (CNT : (⟨S524288, .f32⟩ : BufTy).Contents (Elt Ideal)) (b : Fin 16) (c : Fin 64) (n : Fin 32768) :
    broadcastInDim S16x64x32768 ![0, 1, 2] bcast_S16x1x32768_S16x64x32768_0_1_2
        (broadcastInDim S16x1x32768 ![0, 2] bcast_S16x32768_S16x1x32768_0_2
          (maximumf (shapeCast _ CNT shapeCasts_S524288_S16x32768)
            (broadcastInDim S16x32768 ![] bcast_S_S16x32768 (constant (F := Ideal) S_ .f32 0x3F800000#32))))
        (ix3 b c n)
      = max (CNT (ix1 (flat b n))) (Ideal.ofBits .f32 0x3F800000#32) := by
  refine (broadcastInDim_apply _ bcast_S16x1x32768_S16x64x32768_0_1_2 _ (ix3 b c n)
    (ix3 b (⟨0, Nat.one_pos⟩ : Fin 1) n) (fun a => match a with
      | ⟨0, _⟩ => by show b.val = if (16 : Nat) = 1 then 0 else b.val; rw [if_neg (by decide)]
      | ⟨1, _⟩ => by show 0 = if (1 : Nat) = 1 then 0 else c.val; rw [if_pos rfl]
      | ⟨2, _⟩ => by show n.val = if (32768 : Nat) = 1 then 0 else n.val; rw [if_neg (by decide)])).trans ?_
  refine (bcast_row_apply _ b _ n).trans ?_
  refine (maximumf_apply _ _ _).trans ?_
  exact congrArg₂ max (counts_apply CNT b n) (one_apply _)

/-- At (batch, channel, voxel) the kernel's result is its array at (batch, channel, voxel) divided by the larger of the
    count table's entry at the voxel's flat row and 1. -/
theorem tail_apply (ARR : (⟨S16x64x32768, .f32⟩ : BufTy).Contents (Elt Ideal))
    (CNT : (⟨S524288, .f32⟩ : BufTy).Contents (Elt Ideal)) (i : S16x64x32x32x32.Idx) :
    tail ARR CNT i
      = Ideal.div (ARR (ix3 (batchOf i) (chanOf i) (voxOf i)))
          (max (CNT (ix1 (flat (batchOf i) (voxOf i)))) (Ideal.ofBits .f32 0x3F800000#32)) := by
  unfold tail
  refine (shapeCast_apply _ shapeCasts_S16x64x32768_S16x64x32x32x32 i (ix3 (batchOf i) (chanOf i) (voxOf i))
    (by rewrite [Shape.rowMajor_val_three, Shape.rowMajor_val_five]; have h0 : (i 0).val < 16 := (i 0).isLt; have h1 : (i 1).val < 64 := (i 1).isLt; have h2 : (i 2).val < 32 := (i 2).isLt; have h3 : (i 3).val < 32 := (i 3).isLt; have h4 : (i 4).val < 32 := (i 4).isLt; show ((((((i 0).val * 64 + (i 1).val) * 32 + (i 2).val) * 32 + (i 3).val) * 32 + (i 4).val) / 2097152 * 64 + (((((i 0).val * 64 + (i 1).val) * 32 + (i 2).val) * 32 + (i 3).val) * 32 + (i 4).val) / 32768 % 64) * 32768 + (((((i 0).val * 64 + (i 1).val) * 32 + (i 2).val) * 32 + (i 3).val) * 32 + (i 4).val) % 32768 = ((((i 0).val * 64 + (i 1).val) * 32 + (i 2).val) * 32 + (i 3).val) * 32 + (i 4).val; omega)).trans ?_
  exact congrArg (Ideal.div (ARR (ix3 (batchOf i) (chanOf i) (voxOf i)))) (divisor_apply CNT (batchOf i) (chanOf i) (voxOf i))

end Kernel

end Cert.OutRead

end
-- ==== Proof.Bridge.lean ====
/-
  The two programs' first results are one function of the arguments, at the extended reals.

  The kernel's scattered sums at `(b, p, v)` add the features `(b, n, p)` of the points `n` of batch `b` whose voxel
  index is `v`.  The reference scatters every point of every batch into row `32768·b' + index` of one flat table; since
  every voxel index of finite coordinates lies below 32768, row `32768·b + v` receives exactly the points of batch `b`
  with index `v`.  Both programs then divide by the same count, the larger of the voxel's count and one, and lay the
  quotients out as [16, 64, 32, 32, 32].
-/
import proofs.«170821_j87144886436561_2_alg».proof.Proof.RefSums
import proofs.«170821_j87144886436561_2_alg».proof.Proof.VoxelRange
import proofs.«170821_j87144886436561_2_alg».proof.Proof.OutRead
import proofs.«170821_j87144886436561_2_alg».proof.Proof.KernelArray

noncomputable section

namespace Cert.KernelIdeal.Voxel

open Cert.KernelIdeal Cert.KernelIdeal.Gen
open Idealize.ShloMosaic Idealize.ShloMosaic.ValueIdx

/-- The kernel's scattered sums over the reference's per-point index are the reference's scattered rows, transposed. -/
theorem scat_eq_ref (x0 : (⟨S16x32768x64, .f32⟩ : BufTy).Contents (Elt Ideal)) (x1 : (⟨S16x32768x3, .f32⟩ : BufTy).Contents (Elt Ideal))
    (hfin : ∀ i, ∃ r : ℝ, x1 i = (r : EReal)) (b : Fin 16) (p : Fin 64) (v : Fin 32768) :
    scat x0 (broadcastInDim S16x1x32768 ![0, 2] bcast_S16x32768_S16x1x32768_0_2 (Cert.ReferenceIdeal.Read.val_main_v32 (F := Ideal) x1))
        (ix3 b p v)
      = Cert.ReferenceIdeal.Read.val_main_v44 (F := Ideal) x0 x1 (ix3 b v p) := by
  rw [Cert.RefSums.ref_sums x0 x1 (Cert.VoxelRange.idx_range x1 hfin) b v p]
  unfold scat hot
  refine Finset.sum_congr rfl fun n _ => ?_
  show x0 (ix3 b n p) * (if broadcastInDim S16x1x32768 ![0, 2] bcast_S16x32768_S16x1x32768_0_2
      (Cert.ReferenceIdeal.Read.val_main_v32 (F := Ideal) x1) (ix3 b (0 : Fin 1) n) = BitVec.ofNat 32 v.val then (1 : EReal) else 0) = _
  rw [Cert.OutRead.idx_operand_apply]

/-- The kernel's first result, as its tail of the scattered sums and the counts, is the reference's. -/
theorem bridge (x0 : (⟨S16x32768x64, .f32⟩ : BufTy).Contents (Elt Ideal)) (x1 : (⟨S16x32768x3, .f32⟩ : BufTy).Contents (Elt Ideal))
    (hfin : ∀ i, ∃ r : ℝ, x1 i = (r : EReal)) :
    Cert.OutRead.tail
        (scat x0 (broadcastInDim S16x1x32768 ![0, 2] bcast_S16x32768_S16x1x32768_0_2 (Cert.ReferenceIdeal.Read.val_main_v32 (F := Ideal) x1)))
        (Cert.ReferenceIdeal.Read.val_main_v48 (F := Ideal) x1)
      = Cert.ReferenceIdeal.Read.val_main_v55 (F := Ideal) x0 x1 := by
  funext i
  rw [Cert.OutRead.tail_apply, Cert.OutRead.reference_out_apply, scat_eq_ref x0 x1 hfin]

end Cert.KernelIdeal.Voxel

end
-- ==== Proof.KernelRun.lean ====
/-
  The kernel program's run at the extended reals, read at its two results.

  After the region the host lines divide the scattered sums by the broadcast counts and reshape; they write neither the
  normalized coordinates nor an argument.  With the array the region leaves (the scattered sums), the arrays it finds
  (the reference's stages of the coordinates) and the bridge, the first result is the reference's first result of the
  same arguments and the second its normalized coordinates, whenever the coordinates are finite.
-/
import proofs.«170821_j87144886436561_2_alg».proof.Proof.KernelArray
import proofs.«170821_j87144886436561_2_alg».proof.Proof.KernelHost
import proofs.«170821_j87144886436561_2_alg».proof.Proof.Bridge

set_option maxRecDepth 16384

noncomputable section

namespace Cert.KernelIdeal.Voxel

open Cert.KernelIdeal Cert.KernelIdeal.Gen
open Idealize.ShloMosaic Idealize.ShloMosaic.TcCoe Idealize.ShloMosaic.Tactic Idealize.ShloMosaic.StableHlo
open Idealize.SL Idealize.SL.Sem
open Idealize.ShloMosaic.Pipeline (Dat)

variable (m : (ℓ : Loc nD τ sig) → Buf (Elt Ideal) ℓ) (ρ : Dev nD → PrngReg)

set_option maxHeartbeats 2000000 in
/-- The first result after the host lines that follow the region: their operations of the array the region leaves and
    of the counts the region finds. -/
theorem tail_v52 (c : Dev nD) :
    Pipeline.afterTail₀ cfgs (dats m) 0 (V0 m) [hostOps1] c main_v52
      = Cert.OutRead.tail ((dats m 0 c).arrAt 2 cfg0.N)
          (Cert.ReferenceIdeal.Read.val_main_v48 (F := Ideal) (m ((c : Thread nD τ).loc main_arg1))) := by
  unfold Pipeline.afterTail₀
  show StableHlo.after hostOps1 _ (Proc.devRef .tc main_v52) = _
  after_results
  have e1 : Pipeline.withArrays (cfgs 0).spec c (V0 m c) (fun w => (dats m 0 c).arrAt w (cfgs 0).N) (Proc.devRef .tc main_v46)
      = (dats m 0 c).arrAt 2 cfg0.N := Pipeline.withArrays_arr spec0 launch0.win.arr_inj c _ _ 2
  have e2 : Pipeline.withArrays (cfgs 0).spec c (V0 m c) (fun w => (dats m 0 c).arrAt w (cfgs 0).N) (Proc.devRef .tc main_v44)
      = V m c main_v44 :=
    Pipeline.withArrays_of_ne _ c (V0 m c) _ main_v44 (by exact (by decide : ∀ w, Pipeline.arrRef spec0 w ≠ main_v44))
  rw [e1, e2, V_v44]
  rfl

/-- No host line after the region writes the normalized coordinates. -/
theorem tail_v16 (c : Dev nD) :
    Pipeline.afterTail₀ cfgs (dats m) 0 (V0 m) [hostOps1] c main_v16 = V m c main_v16 := by
  unfold Pipeline.afterTail₀
  rw [StableHlo.after_of_forall_not_mem (b := Proc.devRef .tc main_v16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v16 (by exact (by decide : ∀ w, Pipeline.arrRef spec0 w ≠ main_v16))]

/-- The kernel program's run: both results at the reference's functions of the arguments, the arguments unchanged. -/
theorem run (hfin : ∀ (c : Dev nD) i, ∃ r : ℝ, m ((c : Thread nD τ).loc main_arg1) i = (r : EReal)) :
    θ_run defs (onTc (τ := τ) (main (F := Ideal))) ⟨m, fun _ => 0, ρ⟩ fun r => ∀ c : Dev nD,
      r.2.mem ((c.tc : Thread nD τ).loc main_v52)
          = Cert.ReferenceIdeal.Read.val_main_v55 (F := Ideal) (m ((c.tc : Thread nD τ).loc main_arg0)) (m ((c.tc : Thread nD τ).loc main_arg1))
      ∧ r.2.mem ((c.tc : Thread nD τ).loc main_v16)
          = Cert.ReferenceIdeal.Read.val_main_v16 (F := Ideal) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v52 (Pipeline.mem_restRefs_of main_v52 (by decide) (by decide))).trans
        ((tail_v52 m c).trans (by
          rw [final, V_main_arg0, V_v45]
          exact bridge _ _ (hfin c))),
      ((h c).2 main_v16 (Pipeline.mem_restRefs_of main_v16 (by decide) (by decide))).trans
        ((tail_v16 m c).trans (V_v16 m c)),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c)⟩)
    (run_main m ρ)

end Cert.KernelIdeal.Voxel

end
-- ==== Proof.lean ====
/-
  The certificate of the voxelization kernel against its reference.

  Both programs normalize the point coordinates of each batch (center by the mean, divide by twice the largest norm
  plus a small constant, shift by one half), round 31 times the result to voxel coordinates, and average the features
  of the points of each voxel.  The reference adds every point's feature row into row `32768 · batch + voxel index` of
  one flat table (a scatter-add) and divides by the voxel's count; the kernel computes, per batch and per tile of 1024
  voxels, the product of the transposed feature rows with the one-hot matrix of the voxel indices, accumulated over 32
  stretches of 1024 points, and divides by the same counts on the host.  At the extended reals the product with a
  one-hot matrix is the sum over the points whose index matches; and because finite coordinates always give a voxel
  index below 32768, a flat row of the reference's table receives exactly the points of its own batch with its own
  voxel index.  So the two results agree entry by entry; the normalized coordinates are one term in both programs.

  The three frames are the generated ones (the reference's is its generated run with the results dropped); the
  idealization rewrote nothing, so `preserves` is trivial.
-/
import proofs.«170821_j87144886436561_2_alg».proof.Defs
import proofs.«170821_j87144886436561_2_alg».proof.Proof.Gen.Kernel
import proofs.«170821_j87144886436561_2_alg».proof.Proof.Gen.Kernel.Frame
import proofs.«170821_j87144886436561_2_alg».proof.Proof.Gen.KernelIdeal
import proofs.«170821_j87144886436561_2_alg».proof.Proof.Gen.KernelIdeal.Frame
import proofs.«170821_j87144886436561_2_alg».proof.Proof.Gen.ReferenceIdeal
import proofs.«170821_j87144886436561_2_alg».proof.Proof.Gen.ReferenceIdeal.Run
import proofs.«170821_j87144886436561_2_alg».proof.Proof.Gen.ReferenceIdeal.Read
import proofs.«170821_j87144886436561_2_alg».proof.Proof.Gen.Pre_finite_inputs
import proofs.«170821_j87144886436561_2_alg».proof.Proof.FiniteInputs
import proofs.«170821_j87144886436561_2_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the results dropped. -/
theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- Both programs end at the reference's two functions of the (agreeing) arguments. -/
theorem algebraic : Cert.algebraic_KernelIdeal_ReferenceIdeal := by
  intro m ρ m' ρ' hpre hagree
  refine ⟨fun c => Cert.ReferenceIdeal.Read.val_main_v55 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.ReferenceIdeal.Read.val_main_v16 (F := Ideal)
      (m ((c.tc : Thread Cert.KernelIdeal.nD Cert.KernelIdeal.τ).loc Cert.KernelIdeal.main_arg1)),
    Cert.KernelIdeal.Voxel.run m ρ (fun c => Cert.FiniteInputs.finite_of_pre _ _ (hpre c)), ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v55_eq, (hagree c).1, (hagree c).2]
  · rw [(h c).2.1, Cert.ReferenceIdeal.Read.val_main_v16_eq, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
